-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1024x512 : Shape := ⟨2, ![1024, 512]⟩
abbrev S1024x128 : Shape := ⟨2, ![1024, 128]⟩
abbrev S512x128 : Shape := ⟨2, ![512, 128]⟩
abbrev S1024 : Shape := ⟨1, ![1024]⟩
abbrev S1024x1 : Shape := ⟨2, ![1024, 1]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x1, .i32⟩
  | .hbm, ⟨3, _⟩ => ⟨S1x128, .i32⟩
  | .hbm, ⟨4, _⟩ => ⟨S8192x128, .i32⟩
  | .hbm, ⟨5, _⟩ => ⟨S8192x128, .i32⟩
  | .hbm, ⟨6, _⟩ => ⟨S8192x128, .i1⟩
  | .hbm, ⟨7, _⟩ => ⟨S8192x128, .bf16⟩
  | .hbm, ⟨8, _⟩ => ⟨S1x128, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S8192x512, .bf16⟩
  | .local _ .vmem, ⟨6, _⟩ => ⟨S512x128, .f32⟩
  | .local _ .vmem, ⟨7, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v23 : Index := Scalar.indexCast v6
  let c0_7 : Index := 0#32
  ![v23.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_4 : BitVec 32 := 0#32
  let v12 : BitVec 1 := Scalar.cmpi .ne v11 c0_i32_4
  v12

def k0_off2 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v13 : Index := Scalar.indexCast v6
  let c0 : Index := 0#32
  ![v13.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  shapeCasts_S1024x512_S1024x512 : S1024x512.ShapeCasts S1024x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S128 : S1024x128.Reduces [0] S128
  shapeCasts_S128_S1x128 : S128.ShapeCasts S1x128
  broadcasts_S1x128_S1024x128 : S1x128.Broadcasts S1024x128
  iota_S1024x128_d1_w32 : S1024x128.Iotas .tc 32 [1]
  natLt_1_32 : 1 < 32
  reduces_S1024x128_S1024 : S1024x128.Reduces [1] S1024
  reduces_S1024x1_S1 : S1024x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  dot_S1024x512_S1024x128_S512x128_0_0_1_1_n_n_wf : DotDims.WF S1024x512 S1024x128 S512x128 [0] [0] [1] [1] [] []
  dot_S1024x512_S512x128_S1024x128_1_0_0_1_n_n_wf : DotDims.WF S1024x512 S512x128 S1024x128 [1] [0] [0] [1] [] []
  hrank0 : 0 < grid0.rank
  k0_mult1_dvd : ∀ i : grid0.Coords, 1024 ∣ (k0_mult1 i).toNat
  k0_off1_inb : ∀ i : grid0.Coords, ∀ (k0_h2 : k0_cond2 i = 1#1), ∀ a, (k0_off1 i) a + S1024x512.size a ≤ S8192x512.size a
  k0_off1_packedbf16 : ∀ i : grid0.Coords, ∀ (k0_h2 : k0_cond2 i = 1#1), (Rect.unit (s := S8192x512) (k0_off1 i) S1024x512.size (k0_off1_inb i k0_h2)).PackedRows (EltTy.packing .bf16)
  k0_off2_inb : ∀ i : grid0.Coords, ∀ (k0_h3 : k0_cond3 i = 1#1), ∀ a, (k0_off2 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)

variable [Facts₀]

def dot_S1024x512_S1024x128_S512x128_0_0_1_1_n_n : DotDims S1024x512 S1024x128 S512x128 where
  lhsContracting := [0]
  rhsContracting := [0]
  lhsNonContracting := [1]
  rhsNonContracting := [1]
  lhsBatch := []
  rhsBatch := []
  wf := dot_S1024x512_S1024x128_S512x128_0_0_1_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond3 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x10 : Shape := ⟨2, ![1, 10]⟩
abbrev S8192x10 : Shape := ⟨2, ![8192, 10]⟩
abbrev S10 : Shape := ⟨1, ![10]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x10, .i32⟩
  | .hbm, ⟨19, _⟩ => ⟨S8192x10, .i32⟩
  | .hbm, ⟨20, _⟩ => ⟨S8192x10, .i32⟩
  | .hbm, ⟨21, _⟩ => ⟨S8192x10, .i1⟩
  | .hbm, ⟨22, _⟩ => ⟨S8192x10, .f32⟩
  | .hbm, ⟨23, _⟩ => ⟨S8192x10, .f32⟩
  | .hbm, ⟨24, _⟩ => ⟨S_, .f32⟩
  | .hbm, ⟨25, _⟩ => ⟨S10, .f32⟩
  | .hbm, ⟨26, _⟩ => ⟨S1x10, .f32⟩
  | .hbm, ⟨27, _⟩ => ⟨S_, .f32⟩
  | .hbm, ⟨28, _⟩ => ⟨S1x10, .f32⟩
  | .hbm, ⟨29, _⟩ => ⟨S1x10, .f32⟩
  | .hbm, ⟨30, _⟩ => ⟨S8192x10, .f32⟩
  | .hbm, ⟨31, _⟩ => ⟨S8192x10, .f32⟩
  | .hbm, ⟨32, _⟩ => ⟨S_, .f32⟩
  | .hbm, ⟨33, _⟩ => ⟨S8192x10, .f32⟩
  | .hbm, ⟨34, _⟩ => ⟨S8192x10, .f32⟩
  | .hbm, ⟨35, _⟩ => ⟨S8192x10, .f32⟩
  | .hbm, ⟨36, _⟩ => ⟨S8192x10, .f32⟩
  | .hbm, ⟨37, _⟩ => ⟨S_, .f32⟩
  | .hbm, ⟨38, _⟩ => ⟨S8192x10, .f32⟩
  | .hbm, ⟨39, _⟩ => ⟨S8192x10, .f32⟩
  | .hbm, ⟨40, _⟩ => ⟨S_, .f32⟩
  | .hbm, ⟨41, _⟩ => ⟨S8192x10, .f32⟩
  | .hbm, ⟨42, _⟩ => ⟨S8192x10, .f32⟩
  | .hbm, ⟨43, _⟩ => ⟨S8192x10, .f32⟩
  | .hbm, ⟨44, _⟩ => ⟨S_, .f32⟩
  | .hbm, ⟨45, _⟩ => ⟨S8192x10, .f32⟩
  | .hbm, ⟨46, _⟩ => ⟨S8192x10, .f32⟩
  | .hbm, ⟨47, _⟩ => ⟨S_, .f32⟩
  | .hbm, ⟨48, _⟩ => ⟨S8192x10, .f32⟩
  | .hbm, ⟨49, _⟩ => ⟨S8192x10, .f32⟩
  | .hbm, ⟨50, _⟩ => ⟨S8192x10, .f32⟩
  | .hbm, ⟨51, _⟩ => ⟨S8192x10, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192x1_S8192x10_0_1 : S8192x1.BroadcastsInDim S8192x10 (![0, 1] : Fin 2 → Fin S8192x10.rank)
  bcast_S1x10_S8192x10_0_1 : S1x10.BroadcastsInDim S8192x10 (![0, 1] : Fin 2 → Fin S8192x10.rank)
  reducesTo_S8192x10_S10_d0 : S8192x10.ReducesTo [0] S10
  bcast_S10_S1x10_1 : S10.BroadcastsInDim S1x10 (![1] : Fin 1 → Fin S1x10.rank)
  bcast_S_S1x10 : S_.BroadcastsInDim S1x10 (![] : Fin 0 → Fin S1x10.rank)
  bcast_S_S8192x10 : S_.BroadcastsInDim S8192x10 (![] : Fin 0 → Fin S8192x10.rank)
  reducesTo_S8192x10_S8192_d1 : S8192x10.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []
  dot_S8192x8192_S8192x10_S8192x10_1_0_0_1_n_n_wf : DotDims.WF S8192x8192 S8192x10 S8192x10 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf

class Facts : Prop extends Facts₀ where

variable [Facts]
-- ==== Proof.KAccBits.lean ====
/-
  What the fused kernel's buffers hold after each grid point, as recursions over the sixteen points, for any float
  instance. The grid is two passes of eight tiles of 1024 rows. In the first pass (points 0–7) a point adds its tile's
  contribution to the class sums (a 512×128 accumulator) and to the class sizes (a 1×128 accumulator), both zeroed at
  point 0; in the second pass (points 8–15) a point reads 1024 cached normalised rows and both accumulators and adds the
  tile's loss, in lane 0, to the 1×128 output row, zeroed at point 0 and untouched during the rest of the first pass.
  The tiles are abstract here: `XB n` is the feature block and `OB n` the indicator block that point `n` is handed.
-/
import proofs.«174399_j33268816675395_2_alg».proof.Proof.Gen.Kernel.Skeleton

noncomputable section

namespace Cert.Kernel.Hand

open Cert.Kernel Cert.Kernel.Gen
open Idealize.ShloMosaic

variable {F : FTy → Type} [FloatOps F]

/-- The lane numbers 0 … 127 as one row. -/
abbrev laneIota : IVec S1x128 32 := iota .tc S1x128 32 [1] iota_S1x128_d1_w32

variable (XB : ℕ → Vec F S1024x512 .f32) (OB : ℕ → Vec F S1024x128 .bf16)

/-- The class sums after point `n`: zero plus the first-pass tiles' contributions so far, frozen from point 7 on. -/
def accG : ℕ → Vec F S512x128 .f32
  | 0 => k0_pay7 (XB 0) (OB 0) k0_pay1
  | n + 1 => if n + 1 < 8 then k0_pay7 (XB (n + 1)) (OB (n + 1)) (accG n) else accG n

/-- The class sizes after point `n`, likewise. -/
def accC : ℕ → Vec F S1x128 .f32
  | 0 => k0_pay8 (OB 0) k0_pay2
  | n + 1 => if n + 1 < 8 then k0_pay8 (OB (n + 1)) (accC n) else accC n

/-- The output row after point `n`: zero through the first pass, then one tile's loss added per point; the tile of
    second-pass point `n` is the cached normalisation of the feature block of first-pass point `n - 8`. -/
def accO : ℕ → Vec F S1x128 .f32
  | 0 => k0_pay3
  | n + 1 =>
    if n + 1 < 8 then accO n
    else k0_pay9 (k0_pay10 (k0_pay5 (XB (n + 1 - 8))) (accG XB OB n) (accC OB n) (OB (n + 1))) laneIota k0_pay11 (accO n)

theorem accG_succ_lt (n : ℕ) (h : n + 1 < 8) : accG XB OB (n + 1) = k0_pay7 (XB (n + 1)) (OB (n + 1)) (accG XB OB n) := by
  rw [accG, if_pos h]
theorem accG_succ_ge (n : ℕ) (h : ¬ n + 1 < 8) : accG XB OB (n + 1) = accG XB OB n := by
  rw [accG, if_neg h]
theorem accC_succ_lt (n : ℕ) (h : n + 1 < 8) : accC OB (n + 1) = k0_pay8 (OB (n + 1)) (accC OB n) := by
  rw [accC, if_pos h]
theorem accC_succ_ge (n : ℕ) (h : ¬ n + 1 < 8) : accC OB (n + 1) = accC OB n := by
  rw [accC, if_neg h]
theorem accO_succ_lt (n : ℕ) (h : n + 1 < 8) : accO XB OB (n + 1) = accO XB OB n := by
  rw [accO, if_pos h]
theorem accO_succ_ge (n : ℕ) (h : ¬ n + 1 < 8) : accO XB OB (n + 1)
    = k0_pay9 (k0_pay10 (k0_pay5 (XB (n + 1 - 8))) (accG XB OB n) (accC OB n) (OB (n + 1))) laneIota k0_pay11 (accO XB OB n) := by
  rw [accO, if_neg h]

end Cert.Kernel.Hand

end
-- ==== Proof.KBodyBits.lean ====
/-
  The fused kernel's body at one grid point, in each of the three ways the grid meets its conditionals: what it leaves in
  the output row's staging buffer and in the three scratch buffers as named functions of what it found there and of the
  point's two input tiles. For any float instance.
-/
import proofs.«174399_j33268816675395_2_alg».proof.Proof.Gen.Kernel.Frame
import proofs.«174399_j33268816675395_2_alg».proof.Proof.Gen.Kernel.Skeleton
import proofs.«174399_j33268816675395_2_alg».proof.Proof.KAccBits
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the three conditionals of the body, from the grid coordinates. -/
abbrev cond0_0 (i : grid0.Coords) : Prop := k0_cond1 i = 1#1
abbrev cond0_1 (i : grid0.Coords) : Prop := k0_cond2 i = 1#1
abbrev cond0_2 (i : grid0.Coords) : Prop := k0_cond3 i = 1#1

theorem zero2 : (![0, 0] : Fin 2 → ℕ) = fun _ => 0 := by funext a; fin_cases a <;> rfl

/-- The 1024 rows of the cache of normalised rows that a second-pass point reads. -/
def cacheRows (i : grid0.Coords) (hc2 : cond0_2 i) (x5 : Vec F S8192x512 .bf16) : Vec F S1024x512 .bf16 :=
  View.ld x5 (Rect.unit (s := S8192x512) (k0_off2 i) S1024x512.size (k0_off2_inb i hc2))

/-- The cache of normalised rows after a first-pass point has stored its 1024 rows `w` into it. -/
def cacheStore (arg5 : Memref sig .tc .vmem S8192x512 .bf16) (harg5 : arg5.IsWhole) (i : grid0.Coords) (hc1 : cond0_1 i)
    (x5 : Vec F S8192x512 .bf16) (w : Vec F S1024x512 .bf16) : Vec F S8192x512 .bf16 :=
  arg5.view.read (Elt F) (arg5.view.writes (Elt F) (harg5.unread x5)
    [⟨Rect.unit (s := S8192x512) (k0_off1 i) S1024x512.size (k0_off1_inb i hc1), w⟩])

set_option maxHeartbeats 1000000 in
/-- The first point (first and second conditional taken, third skipped): the body zeroes the class sums, the class sizes and
    the output row, stores the tile's 1024 normalised rows into the cache, and adds the tile's class sums and class sizes. -/
theorem runA (c : Dev nD) (i : grid0.Coords) (arg2 : Memref sig .tc .vmem S1024x512 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8192x512 .bf16) (harg5 : arg5.IsWhole) (arg6 : Memref sig .tc .vmem S512x128 .f32) (harg6 : arg6.IsWhole) (arg7 : Memref sig .tc .vmem S1x128 .f32) (harg7 : arg7.IsWhole) (hc0 : cond0_0 i) (hc1 : cond0_1 i) (hc2 : ¬cond0_2 i)
    (x0 : Vec F S1024x512 .f32) (x1 : Vec F S1024x128 .bf16) (xo : Vec F S1x128 .f32) (x5 : Vec F S8192x512 .bf16) (xs1 : Vec F S512x128 .f32) (xs2 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare xo ∗ owns (c : Thread nD τ) arg5 fullShare x5 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ owns (c : Thread nD τ) arg4 fullShare (k0_pay3 (F := F))
                ∗ owns (c : Thread nD τ) arg5 fullShare (cacheStore arg5 harg5 i hc1 x5 (k0_pay5 x0))
                ∗ owns (c : Thread nD τ) arg6 fullShare (k0_pay7 x0 x1 k0_pay1)
                ∗ owns (c : Thread nD τ) arg7 fullShare (k0_pay8 x1 k0_pay2)) -∗ K ⟨⟩))
          ⊢ wp frame (wpE (defs₀ (F := F)) Variants.none c none) E (cc0__fused_kernel i arg2 harg2 arg3 harg3 arg4 harg4 arg5 harg5 arg6 harg6 arg7 harg7) K := by
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero zero2 inb_S1x128_S1x128_0_0 y⟩),
        View.canon_cons_unit_zero zero2]
    isplitl [HS0]
    · iexists _; isplitr; swap; · iexact HS0
      ipureintro
      unfold cacheStore
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    isplitl [HS1]
    · iexists _; isplitr; swap; · iexact HS1
      ipureintro
      rw [View.read_writes_eq_canon _ _ _ (fun y => ⟨_, List.mem_cons_self, View.mem_set_unit_zero zero2 inb_S512x128_S512x128_0_0 y⟩),
        View.canon_cons_unit_zero zero2]
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    iexists _; isplitr; swap; · iexact HS2
    ipureintro
    rw [View.read_writes_eq_canon _ _ _ (fun y => ⟨_, List.mem_cons_self, View.mem_set_unit_zero zero2 inb_S1x128_S1x128_0_0 y⟩),
      View.canon_cons_unit_zero zero2]
    sl_unfold_run_names
    simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
    try rfl

set_option maxHeartbeats 1000000 in
/-- A later first-pass point (only the second conditional taken): the body stores the tile's 1024 normalised rows into the
    cache and adds the tile's class sums and class sizes to what the point before left; the output row is not touched. -/
theorem runB (c : Dev nD) (i : grid0.Coords) (arg2 : Memref sig .tc .vmem S1024x512 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8192x512 .bf16) (harg5 : arg5.IsWhole) (arg6 : Memref sig .tc .vmem S512x128 .f32) (harg6 : arg6.IsWhole) (arg7 : Memref sig .tc .vmem S1x128 .f32) (harg7 : arg7.IsWhole) (hc0 : ¬cond0_0 i) (hc1 : cond0_1 i) (hc2 : ¬cond0_2 i)
    (x0 : Vec F S1024x512 .f32) (x1 : Vec F S1024x128 .bf16) (xo : Vec F S1x128 .f32) (x5 : Vec F S8192x512 .bf16) (xs1 : Vec F S512x128 .f32) (xs2 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare xo ∗ owns (c : Thread nD τ) arg5 fullShare x5 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ owns (c : Thread nD τ) arg4 fullShare xo
                ∗ owns (c : Thread nD τ) arg5 fullShare (cacheStore arg5 harg5 i hc1 x5 (k0_pay5 x0))
                ∗ owns (c : Thread nD τ) arg6 fullShare (k0_pay7 x0 x1 xs1)
                ∗ owns (c : Thread nD τ) arg7 fullShare (k0_pay8 x1 xs2)) -∗ K ⟨⟩))
          ⊢ wp frame (wpE (defs₀ (F := F)) Variants.none c none) E (cc0__fused_kernel i arg2 harg2 arg3 harg3 arg4 harg4 arg5 harg5 arg6 harg6 arg7 harg7) K := by
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; swap; · iexact HS0
      ipureintro
      unfold cacheStore
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    isplitl [HS1]
    · iexists _; isplitr; swap; · iexact HS1
      ipureintro
      rw [View.read_writes_eq_canon _ _ _ (fun y => ⟨_, List.mem_singleton_self _, View.mem_set_unit_zero zero2 inb_S512x128_S512x128_0_0 y⟩),
        View.canon_unit_zero zero2]
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    iexists _; isplitr; swap; · iexact HS2
    ipureintro
    rw [View.read_writes_eq_canon _ _ _ (fun y => ⟨_, List.mem_singleton_self _, View.mem_set_unit_zero zero2 inb_S1x128_S1x128_0_0 y⟩),
      View.canon_unit_zero zero2]
    sl_unfold_run_names
    simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
    try rfl

set_option maxHeartbeats 1000000 in
/-- A second-pass point (first and second conditional skipped, third taken): the body reads 1024 cached rows, the class
    sums and the class sizes, and adds the tile's loss, in lane 0, to the output row; everything else is left as found. -/
theorem runC (c : Dev nD) (i : grid0.Coords) (arg2 : Memref sig .tc .vmem S1024x512 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8192x512 .bf16) (harg5 : arg5.IsWhole) (arg6 : Memref sig .tc .vmem S512x128 .f32) (harg6 : arg6.IsWhole) (arg7 : Memref sig .tc .vmem S1x128 .f32) (harg7 : arg7.IsWhole) (hc0 : ¬cond0_0 i) (hc1 : ¬cond0_1 i) (hc2 : cond0_2 i)
    (x0 : Vec F S1024x512 .f32) (x1 : Vec F S1024x128 .bf16) (xo : Vec F S1x128 .f32) (x5 : Vec F S8192x512 .bf16) (xs1 : Vec F S512x128 .f32) (xs2 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare xo ∗ owns (c : Thread nD τ) arg5 fullShare x5 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ owns (c : Thread nD τ) arg4 fullShare (k0_pay9 (k0_pay10 (cacheRows i hc2 x5) xs1 xs2 x1) laneIota k0_pay11 xo)
                ∗ owns (c : Thread nD τ) arg5 fullShare x5 ∗ owns (c : Thread nD τ) arg6 fullShare xs1 ∗ owns (c : Thread nD τ) arg7 fullShare xs2) -∗ K ⟨⟩))
          ⊢ wp frame (wpE (defs₀ (F := F)) Variants.none c none) E (cc0__fused_kernel i arg2 harg2 arg3 harg3 arg4 harg4 arg5 harg5 arg6 harg6 arg7 harg7) K := by
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero zero2 inb_S1x128_S1x128_0_0 y⟩),
        View.canon_unit_zero zero2]
      sl_unfold_run_names
      simp only [View.readAt_eq_ld, harg3.read_unread, harg4.read_unread, harg5.read_unread, harg6.read_unread, harg7.read_unread,
        View.ld_unit_zero (S := S1x128) zero2, View.ld_unit_zero (S := S512x128) zero2, View.ld_unit_zero (S := S1024x128) zero2]
      rfl
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.Kernel.Hand

end
-- ==== Proof.KFrameBits.lean ====
/-
  The frame of the fused kernel: what its scratch buffers and its output row hold after each of the sixteen grid points,
  the invariant that carries those contents from point to point, and the run of the whole program.

  Two scratch accumulators (class sums, class sizes) and the output row follow the recursions of the accumulation module.
  The third scratch, the cache of normalised rows, is filled 1024 rows per first-pass point: after point n its rows below
  1024·(n+1) (all of them once the first pass is over) are the normalised feature rows, tile by tile; the other rows are
  whatever they were, so the invariant holds the cache at SOME contents with that property.
-/
import proofs.«174399_j33268816675395_2_alg».proof.Proof.KBodyBits
import proofs.«174399_j33268816675395_2_alg».proof.Proof.KAccBits
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch operands and the tiles -/

/-- The three scratch operands as whole memrefs: the cache of normalised rows, the class sums, the class sizes. -/
abbrev scM0 : Memref sig .tc .vmem S8192x512 .bf16 := Memref.whole cc0_scratch0
abbrev scM1 : Memref sig .tc .vmem S512x128 .f32 := Memref.whole cc0_scratch1
abbrev scM2 : Memref sig .tc .vmem S1x128 .f32 := Memref.whole cc0_scratch2

/-- What the launch hands the body besides the windows: the three scratch buffers at some contents and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The feature tile and the indicator tile that point number `n` is handed (anything past the grid). -/
def xblk (c : Dev nD) (n : ℕ) : Vec F S1024x512 .f32 :=
  if h : n < cfg0.N then iblk m c 0 ⟨n, h⟩ else fun _ => Classical.choice (Elt.nonempty F .f32)
def oblk (c : Dev nD) (n : ℕ) : Vec F S1024x128 .bf16 :=
  if h : n < cfg0.N then iblk m c 1 ⟨n, h⟩ else fun _ => Classical.choice (Elt.nonempty F .bf16)

theorem xblk_fin (c : Dev nD) (t : Fin cfg0.N) : xblk m c t.val = iblk m c 0 t := dif_pos t.isLt
theorem oblk_fin (c : Dev nD) (t : Fin cfg0.N) : oblk m c t.val = iblk m c 1 t := dif_pos t.isLt

/-! ## The cache of normalised rows -/

/-- Row `y 0` of tile `t` of the cache, column `y 1`. -/
def rowAt (t : Fin 8) (y : S1024x512.Idx) : S8192x512.Idx :=
  ValueIdx.ix2 (⟨1024 * t.val + (y 0).val, by have := ValueIdx.idx2_lt0 y; omega⟩ : Fin 8192)
    (⟨(y 1).val, ValueIdx.idx2_lt1 y⟩ : Fin 512)

/-- The first `n + 1` tiles of the cache (at most eight) hold the normalised feature tiles. -/
def CacheOK (c : Dev nD) (n : ℕ) (X5 : Vec F S8192x512 .bf16) : Prop :=
  ∀ (t : Fin 8) (y : S1024x512.Idx), t.val ≤ n → X5 (rowAt t y) = k0_pay5 (xblk m c t.val) y

theorem CacheOK.mono {c : Dev nD} {n n' : ℕ} {X5 : Vec F S8192x512 .bf16} (h : CacheOK m c n X5) (hn : 7 ≤ n) :
    CacheOK m c n' X5 := fun t y _ => h t y (by have := t.isLt; omega)

/-- Where a first-pass point stores its rows and where a second-pass point reads them: tile (point mod 8), column 0. -/
theorem off1_eq : ∀ t : Fin grid0.N, k0_off1 (grid0.coords t) = ![1024 * (t.val % 8), 0] := by decide +kernel
theorem off2_eq : ∀ t : Fin grid0.N, k0_off2 (grid0.coords t) = ![1024 * (t.val % 8), 0] := by decide +kernel

/-- A second-pass point reads, from a cache whose eight tiles are in place, the normalised tile of its first-pass twin. -/
theorem cacheRows_eq (c : Dev nD) (t : Fin cfg0.N) (h8 : 8 ≤ t.val) (hc2 : cond0_2 (grid0.coords t))
    (X5 : Vec F S8192x512 .bf16) (hX : CacheOK m c 7 X5) :
    cacheRows (grid0.coords t) hc2 X5 = k0_pay5 (xblk m c (t.val - 8)) := by
  have hN : t.val < 16 := lt_of_lt_of_eq t.isLt N_0
  funext y
  rw [← hX ⟨t.val - 8, by omega⟩ y (by show t.val - 8 ≤ 7; omega)]
  unfold cacheRows View.ld
  congr 1
  funext a; apply Fin.ext
  have e := off2_eq t
  match a with
  | ⟨0, _⟩ =>
    show k0_off2 (grid0.coords t) 0 + 1 * (y 0).val = 1024 * (t.val - 8) + (y 0).val
    rw [e]; show 1024 * (t.val % 8) + 1 * (y 0).val = _; omega
  | ⟨1, _⟩ =>
    show k0_off2 (grid0.coords t) 1 + 1 * (y 1).val = (y 1).val
    rw [e]; show 0 + 1 * (y 1).val = _; omega

/-- Reading the cache after one store of 1024 whole rows at row `o`: a row of the band reads the stored tile, -/
theorem read_store_hit (v : View sig .tc .vmem S8192x512 .bf16) (f : v.ty.Contents (Elt F)) (off : Fin 2 → ℕ)
    (inb : ∀ a, off a + S1024x512.size a ≤ S8192x512.size a) (w : Vec F S1024x512 .bf16) (o : ℕ) (e : off = ![o, 0])
    (y' : S8192x512.Idx) (y : S1024x512.Idx) (h0 : (y' (0 : Fin 2)).val = o + (y (0 : Fin 2)).val)
    (h1 : (y' (1 : Fin 2)).val = (y (1 : Fin 2)).val) :
    v.read (Elt F) (v.writes (Elt F) f [(⟨Rect.unit (s := S8192x512) off S1024x512.size inb, w⟩ : View.Piece (Elt F) S8192x512 .bf16)]) y' = w y :=
  View.read_writes_cons_rows_of_mem v f inb w [] y' y e h0 h1

/-- and a row outside the band reads what was there. -/
theorem read_store_miss (v : View sig .tc .vmem S8192x512 .bf16) (f : v.ty.Contents (Elt F)) (off : Fin 2 → ℕ)
    (inb : ∀ a, off a + S1024x512.size a ≤ S8192x512.size a) (w : Vec F S1024x512 .bf16) (o : ℕ) (e : off = ![o, 0])
    (y' : S8192x512.Idx) (h : (y' (0 : Fin 2)).val < o ∨ o + 1024 ≤ (y' (0 : Fin 2)).val) :
    v.read (Elt F) (v.writes (Elt F) f [(⟨Rect.unit (s := S8192x512) off S1024x512.size inb, w⟩ : View.Piece (Elt F) S8192x512 .bf16)]) y' = v.read (Elt F) f y' :=
  (View.read_writes_cons_rows_of_not_mem v f inb w [] y' e rfl h).trans (by rw [View.writes_nil])

/-- A first-pass point's store puts its tile in place and keeps the tiles before it. -/
theorem cacheStore_ok (c : Dev nD) (t : Fin cfg0.N) (h8 : t.val < 8) (hc1 : cond0_1 (grid0.coords t))
    (X5 : Vec F S8192x512 .bf16) (hX : ∀ n, t.val = n + 1 → CacheOK m c n X5) :
    CacheOK m c t.val (cacheStore scM0 (Memref.isWhole_whole _) (grid0.coords t) hc1 X5 (k0_pay5 (xblk m c t.val))) := by
  intro t' y hle
  have e : k0_off1 (grid0.coords t) = ![1024 * t.val, 0] := by rw [off1_eq t, Nat.mod_eq_of_lt h8]
  unfold cacheStore
  by_cases ht : t'.val = t.val
  · rw [read_store_hit scM0.view _ _ (k0_off1_inb (grid0.coords t) hc1) _ (1024 * t.val) e (rowAt t' y) y
      (by show 1024 * t'.val + (y 0).val = 1024 * t.val + (y 0).val; rw [ht]) rfl, ht]
  · rw [read_store_miss scM0.view _ _ (k0_off1_inb (grid0.coords t) hc1) _ (1024 * t.val) e (rowAt t' y)
      (Or.inl (by show 1024 * t'.val + (y 0).val < 1024 * t.val; have := ValueIdx.idx2_lt0 y; omega)),
      Memref.IsWhole.read_unread]
    obtain ⟨n, hn⟩ : ∃ n, t.val = n + 1 := ⟨t.val - 1, by omega⟩
    exact hX n hn t' y (by omega)

/-! ## The invariant and the proof data -/

/-- The invariant before point number `n`: what the launch hands over before the first point; afterwards the cache at some
    contents whose first tiles are in place, the two accumulators at the recursion's values, the generator register at
    some state. -/
def Phi (c : Dev nD) : ℕ → sProp 𝕄
  | 0 => Pipeline.ΦA spec0 c
  | n + 1 => iprop(iprop((∃ X5, ⌜CacheOK m c n X5⌝ ∗ owns (c : Thread nD τ) scM0 fullShare X5)
      ∗ owns (c : Thread nD τ) scM1 fullShare (accG (xblk m c) (oblk m c) n)
      ∗ owns (c : Thread nD τ) scM2 fullShare (accC (oblk m c) n)) ∗ (∃ r, prngReg c r))

theorem Phi_succ (c : Dev nD) (n : ℕ) :
    Phi m c (n + 1) = iprop(iprop((∃ X5, ⌜CacheOK m c n X5⌝ ∗ owns (c : Thread nD τ) scM0 fullShare X5)
      ∗ owns (c : Thread nD τ) scM1 fullShare (accG (xblk m c) (oblk m c) n)
      ∗ owns (c : Thread nD τ) scM2 fullShare (accC (oblk m c) n)) ∗ (∃ r, prngReg c r)) := rfl

theorem Phi_pos (c : Dev nD) (n : ℕ) (hn : n ≠ 0) :
    Phi m c n = iprop(iprop((∃ X5, ⌜CacheOK m c (n - 1) X5⌝ ∗ owns (c : Thread nD τ) scM0 fullShare X5)
      ∗ owns (c : Thread nD τ) scM1 fullShare (accG (xblk m c) (oblk m c) (n - 1))
      ∗ owns (c : Thread nD τ) scM2 fullShare (accC (oblk m c) (n - 1))) ∗ (∃ r, prngReg c r)) := by
  cases n with
  | zero => exact absurd rfl hn
  | succ n => rfl

/-- The proof data of the pipeline on core `c`: the arrays as the region finds them; after the body at point `t` each input's
    buffer at its block and the output row at the recursion's value; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accO (xblk m c) (oblk m c) t.val
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accO (xblk m c) (oblk m c) t.val := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The output row between points -/

/-- The output window is never fetched, is written back at the last point only, and is idle exactly at points 1 to 7;
    the input windows are never idle. -/
theorem fetch0_2 : ∀ t : Fin cfg0.N, (cfg0.win 2).fetch t = false :=
  (by decide +kernel : ∀ t : Fin grid0.N, win0_2.fetch t = false)
theorem idle0_2 : ∀ t : Fin cfg0.N, cfg0.idle 2 (grid0.coords t) = decide (1 ≤ t.val ∧ t.val < 8) := by decide +kernel
theorem liveAt0_0 : ∀ t : Fin cfg0.N, cfg0.idle 0 (grid0.coords t) = false := by decide +kernel
theorem liveAt0_1 : ∀ t : Fin cfg0.N, cfg0.idle 1 (grid0.coords t) = false := by decide +kernel

/-- After the first point the output row's buffer holds, when the body runs, what the point before left: its own store if
    it stored, else (points 1 to 7) what it had found, which by the recursion is the same row. -/
theorem before0_2 (c : Dev nD) : ∀ (n : ℕ) (hn : n < cfg0.N), n ≠ 0 → ∀ d,
    (dats m 0 c).before 2 ⟨n, hn⟩ d = accO (xblk m c) (oblk m c) (n - 1)
  | 0, _, h, _ => absurd rfl h
  | n + 1, hn, _, d => by
    have hN : n + 1 < 16 := lt_of_lt_of_eq hn N_0
    rw [Dat.before_of_pos _ 2 ⟨n + 1, hn⟩ (Nat.succ_ne_zero n) (fetch0_2 _) d]
    have hfl : (cfg0.win 2).flush ⟨n + 1 - 1, Nat.lt_of_le_of_lt (Nat.sub_le _ _) hn⟩ = false := by
      cases hf : (cfg0.win 2).flush ⟨n + 1 - 1, Nat.lt_of_le_of_lt (Nat.sub_le _ _) hn⟩
      · rfl
      · have := (flush0_2 _).mp hf; simp only [Nat.add_sub_cancel] at this; omega
    rw [hfl, if_neg Bool.false_ne_true]
    unfold Dat.left
    rw [idle0_2]
    by_cases hi : 1 ≤ n ∧ n < 8
    · rw [decide_eq_true (by simpa using hi)]
      dsimp only
      have := before0_2 c n (Nat.lt_of_succ_lt hn) (by omega) d
      simp only [Nat.add_sub_cancel]
      rw [this]
      obtain ⟨k, rfl⟩ : ∃ k, n = k + 1 := ⟨n - 1, by omega⟩
      rw [Nat.add_sub_cancel, accO_succ_lt _ _ k (by omega)]
    · rw [decide_eq_false (by simpa using hi)]
      dsimp only
      simp only [Nat.add_sub_cancel]
      show (dats m 0 c).after 2 ⟨n, _⟩ = _
      rw [after0_2]

/-! ## The body obligation -/

/-- Each window's current staging memref at point `t`, as the pipeline passes it, and its wholeness. -/
abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)

/-- The three conditions over the grid: the first holds at point 0 only, the second through the first pass, the third
    through the second pass. -/
theorem hcond0 : ∀ t : Fin cfg0.N, cond0_0 (grid0.coords t) ↔ t.val = 0 :=
  (by decide +kernel : ∀ t : Fin grid0.N, cond0_0 (grid0.coords t) ↔ t.val = 0)
theorem hcond1 : ∀ t : Fin cfg0.N, cond0_1 (grid0.coords t) ↔ t.val < 8 :=
  (by decide +kernel : ∀ t : Fin grid0.N, cond0_1 (grid0.coords t) ↔ t.val < 8)
theorem hcond2 : ∀ t : Fin cfg0.N, cond0_2 (grid0.coords t) ↔ 8 ≤ t.val :=
  (by decide +kernel : ∀ t : Fin grid0.N, cond0_2 (grid0.coords t) ↔ 8 ≤ t.val)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [liveAt0_0 t, after0_0]
theorem leaves1 (c : Dev nD) (t : Fin cfg0.N) :
    (dats m 0 c).leavesExact 1 t = owns (c : Thread nD τ) (ms1 t) fullShare (iblk m c 1 t) := by
  unfold Dat.leavesExact; rw [liveAt0_1 t, after0_1]
theorem leaves2_live (c : Dev nD) (t : Fin cfg0.N) (h : ¬(1 ≤ t.val ∧ t.val < 8)) :
    (dats m 0 c).leavesExact 2 t = owns (c : Thread nD τ) (ms2 t) fullShare (accO (xblk m c) (oblk m c) t.val) := by
  unfold Dat.leavesExact; rw [idle0_2 t, decide_eq_false h, after0_2]
theorem leaves2_idle (c : Dev nD) (t : Fin cfg0.N) (h : 1 ≤ t.val ∧ t.val < 8) :
    (dats m 0 c).leavesExact 2 t = iprop(∃ d, owns (c : Thread nD τ) (ms2 t) fullShare ((dats m 0 c).before 2 t d)) := by
  have hN : t.val < 16 := lt_of_lt_of_eq t.isLt N_0
  have hfl : (cfg0.win 2).flush t = false := by
    cases hf : (cfg0.win 2).flush t
    · rfl
    · have := (flush0_2 t).mp hf; omega
  unfold Dat.leavesExact; rw [idle0_2 t, decide_eq_true h, hfl]

set_option maxHeartbeats 4800000 in
/-- The body at any point: the inputs' memrefs hold their blocks; the conditions say which of the three runs applies; the
    invariant hands the body the scratch buffers at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves0, leaves1]
  have hN : t.val < 16 := lt_of_lt_of_eq t.isLt N_0
  by_cases h0 : t.val = 0
  · -- the first point
    have hc0 : cond0_0 (grid0.coords t) := (hcond0 t).mpr h0
    have hc1 : cond0_1 (grid0.coords t) := (hcond1 t).mpr (by omega)
    have hc2 : ¬cond0_2 (grid0.coords t) := fun h => by have := (hcond2 t).mp h; omega
    rw [leaves2_live m c t (by omega), h0, show Phi m c 0 = Pipeline.ΦA spec0 c from rfl, PhiA_eq]
    iintro ⟨⟨⟨⟨%x5, HS0⟩, ⟨%xs1, HS1⟩, ⟨%xs2, HS2⟩⟩, Hg⟩, Ho, ⟨%d0, H0⟩, ⟨%d1, H1⟩, ⟨%d2, H2⟩⟩
    iapply (runA c (grid0.coords t) _ (hs0 t) _ (hs1 t) _ (hs2 t) scM0 (Memref.isWhole_whole _) scM1 (Memref.isWhole_whole _) scM2 (Memref.isWhole_whole _) hc0 hc1 hc2 (iblk m c 0 t) (iblk m c 1 t) _ x5 xs1 xs2 Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · rw [Phi_succ]
      isplitl [HS0 HS1 HS2]
      · isplitl [HS0]
        · iexists _; isplitr; swap; · iexact HS0
          ipureintro
          have := cacheStore_ok m c t (by omega) hc1 x5 (fun n hn => by omega)
          rw [h0] at this; rw [← xblk_fin m c t, h0]; exact this
        isplitl [HS1]
        · rw [accG, ← xblk_fin m c t, ← oblk_fin m c t, h0]; iexact HS1
        rw [accC, ← oblk_fin m c t, h0]; iexact HS2
      iexact Hg
    isplitl [Ho]; · iexact Ho
    isplitl [H0]; · iexact H0
    isplitl [H1]; · iexact H1
    rw [accO]; iexact H2
  · obtain ⟨n, hn⟩ : ∃ n, t.val = n + 1 := ⟨t.val - 1, by omega⟩
    rw [Phi_pos m c t.val h0]
    by_cases h1 : t.val < 8
    · -- a later point of the first pass
      have hc0 : ¬cond0_0 (grid0.coords t) := fun h => h0 ((hcond0 t).mp h)
      have hc1 : cond0_1 (grid0.coords t) := (hcond1 t).mpr h1
      have hc2 : ¬cond0_2 (grid0.coords t) := fun h => by have := (hcond2 t).mp h; omega
      rw [leaves2_idle m c t (by omega)]
      iintro ⟨⟨⟨⟨%x5, %hx5, HS0⟩, HS1, HS2⟩, Hg⟩, Ho, ⟨%d0, H0⟩, ⟨%d1, H1⟩, ⟨%d2, H2⟩⟩
      iapply (runB c (grid0.coords t) _ (hs0 t) _ (hs1 t) _ (hs2 t) scM0 (Memref.isWhole_whole _) scM1 (Memref.isWhole_whole _) scM2 (Memref.isWhole_whole _) hc0 hc1 hc2 (iblk m c 0 t) (iblk m c 1 t) _ x5 _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · rw [Phi_succ]
        isplitl [HS0 HS1 HS2]
        · isplitl [HS0]
          · iexists _; isplitr; swap; · iexact HS0
            ipureintro
            rw [← xblk_fin m c t]
            exact cacheStore_ok m c t h1 hc1 x5 (fun n' hn' => by
              have : t.val - 1 = n' := by omega
              rw [← this]; exact hx5)
          isplitl [HS1]
          · rw [show accG (xblk m c) (oblk m c) t.val = k0_pay7 (iblk m c 0 t) (iblk m c 1 t) (accG (xblk m c) (oblk m c) (t.val - 1)) from by
              rw [← xblk_fin m c t, ← oblk_fin m c t, hn, Nat.add_sub_cancel]; exact accG_succ_lt _ _ n (by omega)]
            iexact HS1
          rw [show accC (oblk m c) t.val = k0_pay8 (iblk m c 1 t) (accC (oblk m c) (t.val - 1)) from by
            rw [← oblk_fin m c t, hn, Nat.add_sub_cancel]; exact accC_succ_lt _ n (by omega)]
          iexact HS2
        iexact Hg
      isplitl [Ho]; · iexact Ho
      isplitl [H0]; · iexact H0
      isplitl [H1]; · iexact H1
      iexists _; iexact H2
    · -- a point of the second pass
      have hc0 : ¬cond0_0 (grid0.coords t) := fun h => h0 ((hcond0 t).mp h)
      have hc1 : ¬cond0_1 (grid0.coords t) := fun h => h1 ((hcond1 t).mp h)
      have hc2 : cond0_2 (grid0.coords t) := (hcond2 t).mpr (by omega)
      rw [leaves2_live m c t (by omega)]
      iintro ⟨⟨⟨⟨%x5, %hx5, HS0⟩, HS1, HS2⟩, Hg⟩, Ho, ⟨%d0, H0⟩, ⟨%d1, H1⟩, ⟨%d2, H2⟩⟩
      have hb2 := before0_2 m c t.val t.isLt h0 d2
      rw [show (⟨t.val, t.isLt⟩ : Fin cfg0.N) = t from rfl] at hb2
      rw [hb2]
      iapply (runC c (grid0.coords t) _ (hs0 t) _ (hs1 t) _ (hs2 t) scM0 (Memref.isWhole_whole _) scM1 (Memref.isWhole_whole _) scM2 (Memref.isWhole_whole _) hc0 hc1 hc2 (iblk m c 0 t) (iblk m c 1 t) _ x5 _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      have hx7 : CacheOK m c 7 x5 := hx5.mono m (by omega)
      isplitl [HS0 HS1 HS2 Hg]
      · rw [Phi_succ]
        isplitl [HS0 HS1 HS2]
        · isplitl [HS0]
          · iexists _; isplitr; swap; · iexact HS0
            ipureintro; exact hx5.mono m (by omega)
          isplitl [HS1]
          · rw [show accG (xblk m c) (oblk m c) t.val = accG (xblk m c) (oblk m c) (t.val - 1) from by
              rw [hn, Nat.add_sub_cancel]; exact accG_succ_ge _ _ n (by omega)]
            iexact HS1
          rw [show accC (oblk m c) t.val = accC (oblk m c) (t.val - 1) from by
            rw [hn, Nat.add_sub_cancel]; exact accC_succ_ge _ n (by omega)]
          iexact HS2
        iexact Hg
      isplitl [Ho]; · iexact Ho
      isplitl [H0]; · iexact H0
      isplitl [H1]; · iexact H1
      rw [show accO (xblk m c) (oblk m c) t.val
          = k0_pay9 (k0_pay10 (cacheRows (grid0.coords t) hc2 x5) (accG (xblk m c) (oblk m c) (t.val - 1)) (accC (oblk m c) (t.val - 1)) (iblk m c 1 t)) laneIota k0_pay11 (accO (xblk m c) (oblk m c) (t.val - 1)) from by
        rw [cacheRows_eq m c t (by omega) hc2 x5 hx7, ← oblk_fin m c t]
        conv_lhs => rw [hn]
        rw [accO_succ_ge _ _ n (by omega), ← hn, hn, Nat.add_sub_cancel]]
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  exact (show Pipeline.ΦA spec0 c ⊢ Pipeline.ΦA spec0 c from Idealize.SL.BI.Entails.refl _)

/-- After the last point the invariant gives it back: the named contents are forgotten. -/
theorem hout (c : Dev nD) : (dats m 0 c).Φ (Fin.last cfg0.N) ⊢ Pipeline.ΦA spec0 c := by
  have hN : cfg0.N = 16 := N_0
  rw [show (dats m 0 c).Φ (Fin.last cfg0.N) = Phi m c cfg0.N from rfl, Phi_pos m c _ (by omega), PhiA_eq]
  iintro ⟨⟨⟨%x5, -, HS0⟩, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of the program terminates; every array of the pipeline ends at what the proof data
    computes, and every other unscoped buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KAccIdeal.lean ====
/-
  What the fused kernel's buffers hold after each grid point, as recursions over the sixteen points, for any float
  instance. The grid is two passes of eight tiles of 1024 rows. In the first pass (points 0–7) a point adds its tile's
  contribution to the class sums (a 512×128 accumulator) and to the class sizes (a 1×128 accumulator), both zeroed at
  point 0; in the second pass (points 8–15) a point reads 1024 cached normalised rows and both accumulators and adds the
  tile's loss, in lane 0, to the 1×128 output row, zeroed at point 0 and untouched during the rest of the first pass.
  The tiles are abstract here: `XB n` is the feature block and `OB n` the indicator block that point `n` is handed.
-/
import proofs.«174399_j33268816675395_2_alg».proof.Proof.Gen.KernelIdeal.Skeleton

noncomputable section

namespace Cert.KernelIdeal.Hand

open Cert.KernelIdeal Cert.KernelIdeal.Gen
open Idealize.ShloMosaic

variable {F : FTy → Type} [FloatOps F]

/-- The lane numbers 0 … 127 as one row. -/
abbrev laneIota : IVec S1x128 32 := iota .tc S1x128 32 [1] iota_S1x128_d1_w32

variable (XB : ℕ → Vec F S1024x512 .f32) (OB : ℕ → Vec F S1024x128 .bf16)

/-- The class sums after point `n`: zero plus the first-pass tiles' contributions so far, frozen from point 7 on. -/
def accG : ℕ → Vec F S512x128 .f32
  | 0 => k0_pay7 (XB 0) (OB 0) k0_pay1
  | n + 1 => if n + 1 < 8 then k0_pay7 (XB (n + 1)) (OB (n + 1)) (accG n) else accG n

/-- The class sizes after point `n`, likewise. -/
def accC : ℕ → Vec F S1x128 .f32
  | 0 => k0_pay8 (OB 0) k0_pay2
  | n + 1 => if n + 1 < 8 then k0_pay8 (OB (n + 1)) (accC n) else accC n

/-- The output row after point `n`: zero through the first pass, then one tile's loss added per point; the tile of
    second-pass point `n` is the cached normalisation of the feature block of first-pass point `n - 8`. -/
def accO : ℕ → Vec F S1x128 .f32
  | 0 => k0_pay3
  | n + 1 =>
    if n + 1 < 8 then accO n
    else k0_pay9 (k0_pay10 (k0_pay5 (XB (n + 1 - 8))) (accG XB OB n) (accC OB n) (OB (n + 1))) laneIota k0_pay11 (accO n)

theorem accG_succ_lt (n : ℕ) (h : n + 1 < 8) : accG XB OB (n + 1) = k0_pay7 (XB (n + 1)) (OB (n + 1)) (accG XB OB n) := by
  rw [accG, if_pos h]
theorem accG_succ_ge (n : ℕ) (h : ¬ n + 1 < 8) : accG XB OB (n + 1) = accG XB OB n := by
  rw [accG, if_neg h]
theorem accC_succ_lt (n : ℕ) (h : n + 1 < 8) : accC OB (n + 1) = k0_pay8 (OB (n + 1)) (accC OB n) := by
  rw [accC, if_pos h]
theorem accC_succ_ge (n : ℕ) (h : ¬ n + 1 < 8) : accC OB (n + 1) = accC OB n := by
  rw [accC, if_neg h]
theorem accO_succ_lt (n : ℕ) (h : n + 1 < 8) : accO XB OB (n + 1) = accO XB OB n := by
  rw [accO, if_pos h]
theorem accO_succ_ge (n : ℕ) (h : ¬ n + 1 < 8) : accO XB OB (n + 1)
    = k0_pay9 (k0_pay10 (k0_pay5 (XB (n + 1 - 8))) (accG XB OB n) (accC OB n) (OB (n + 1))) laneIota k0_pay11 (accO XB OB n) := by
  rw [accO, if_neg h]

end Cert.KernelIdeal.Hand

end
-- ==== Proof.KBodyIdeal.lean ====
/-
  The fused kernel's body at one grid point, in each of the three ways the grid meets its conditionals: what it leaves in
  the output row's staging buffer and in the three scratch buffers as named functions of what it found there and of the
  point's two input tiles. For any float instance.
-/
import proofs.«174399_j33268816675395_2_alg».proof.Proof.Gen.KernelIdeal.Frame
import proofs.«174399_j33268816675395_2_alg».proof.Proof.Gen.KernelIdeal.Skeleton
import proofs.«174399_j33268816675395_2_alg».proof.Proof.KAccIdeal
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the three conditionals of the body, from the grid coordinates. -/
abbrev cond0_0 (i : grid0.Coords) : Prop := k0_cond1 i = 1#1
abbrev cond0_1 (i : grid0.Coords) : Prop := k0_cond2 i = 1#1
abbrev cond0_2 (i : grid0.Coords) : Prop := k0_cond3 i = 1#1

theorem zero2 : (![0, 0] : Fin 2 → ℕ) = fun _ => 0 := by funext a; fin_cases a <;> rfl

/-- The 1024 rows of the cache of normalised rows that a second-pass point reads. -/
def cacheRows (i : grid0.Coords) (hc2 : cond0_2 i) (x5 : Vec F S8192x512 .bf16) : Vec F S1024x512 .bf16 :=
  View.ld x5 (Rect.unit (s := S8192x512) (k0_off2 i) S1024x512.size (k0_off2_inb i hc2))

/-- The cache of normalised rows after a first-pass point has stored its 1024 rows `w` into it. -/
def cacheStore (arg5 : Memref sig .tc .vmem S8192x512 .bf16) (harg5 : arg5.IsWhole) (i : grid0.Coords) (hc1 : cond0_1 i)
    (x5 : Vec F S8192x512 .bf16) (w : Vec F S1024x512 .bf16) : Vec F S8192x512 .bf16 :=
  arg5.view.read (Elt F) (arg5.view.writes (Elt F) (harg5.unread x5)
    [⟨Rect.unit (s := S8192x512) (k0_off1 i) S1024x512.size (k0_off1_inb i hc1), w⟩])

set_option maxHeartbeats 1000000 in
/-- The first point (first and second conditional taken, third skipped): the body zeroes the class sums, the class sizes and
    the output row, stores the tile's 1024 normalised rows into the cache, and adds the tile's class sums and class sizes. -/
theorem runA (c : Dev nD) (i : grid0.Coords) (arg2 : Memref sig .tc .vmem S1024x512 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8192x512 .bf16) (harg5 : arg5.IsWhole) (arg6 : Memref sig .tc .vmem S512x128 .f32) (harg6 : arg6.IsWhole) (arg7 : Memref sig .tc .vmem S1x128 .f32) (harg7 : arg7.IsWhole) (hc0 : cond0_0 i) (hc1 : cond0_1 i) (hc2 : ¬cond0_2 i)
    (x0 : Vec F S1024x512 .f32) (x1 : Vec F S1024x128 .bf16) (xo : Vec F S1x128 .f32) (x5 : Vec F S8192x512 .bf16) (xs1 : Vec F S512x128 .f32) (xs2 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare xo ∗ owns (c : Thread nD τ) arg5 fullShare x5 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ owns (c : Thread nD τ) arg4 fullShare (k0_pay3 (F := F))
                ∗ owns (c : Thread nD τ) arg5 fullShare (cacheStore arg5 harg5 i hc1 x5 (k0_pay5 x0))
                ∗ owns (c : Thread nD τ) arg6 fullShare (k0_pay7 x0 x1 k0_pay1)
                ∗ owns (c : Thread nD τ) arg7 fullShare (k0_pay8 x1 k0_pay2)) -∗ K ⟨⟩))
          ⊢ wp frame (wpE (defs₀ (F := F)) Variants.none c none) E (cc0__fused_kernel i arg2 harg2 arg3 harg3 arg4 harg4 arg5 harg5 arg6 harg6 arg7 harg7) K := by
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero zero2 inb_S1x128_S1x128_0_0 y⟩),
        View.canon_cons_unit_zero zero2]
    isplitl [HS0]
    · iexists _; isplitr; swap; · iexact HS0
      ipureintro
      unfold cacheStore
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    isplitl [HS1]
    · iexists _; isplitr; swap; · iexact HS1
      ipureintro
      rw [View.read_writes_eq_canon _ _ _ (fun y => ⟨_, List.mem_cons_self, View.mem_set_unit_zero zero2 inb_S512x128_S512x128_0_0 y⟩),
        View.canon_cons_unit_zero zero2]
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    iexists _; isplitr; swap; · iexact HS2
    ipureintro
    rw [View.read_writes_eq_canon _ _ _ (fun y => ⟨_, List.mem_cons_self, View.mem_set_unit_zero zero2 inb_S1x128_S1x128_0_0 y⟩),
      View.canon_cons_unit_zero zero2]
    sl_unfold_run_names
    simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
    try rfl

set_option maxHeartbeats 1000000 in
/-- A later first-pass point (only the second conditional taken): the body stores the tile's 1024 normalised rows into the
    cache and adds the tile's class sums and class sizes to what the point before left; the output row is not touched. -/
theorem runB (c : Dev nD) (i : grid0.Coords) (arg2 : Memref sig .tc .vmem S1024x512 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8192x512 .bf16) (harg5 : arg5.IsWhole) (arg6 : Memref sig .tc .vmem S512x128 .f32) (harg6 : arg6.IsWhole) (arg7 : Memref sig .tc .vmem S1x128 .f32) (harg7 : arg7.IsWhole) (hc0 : ¬cond0_0 i) (hc1 : cond0_1 i) (hc2 : ¬cond0_2 i)
    (x0 : Vec F S1024x512 .f32) (x1 : Vec F S1024x128 .bf16) (xo : Vec F S1x128 .f32) (x5 : Vec F S8192x512 .bf16) (xs1 : Vec F S512x128 .f32) (xs2 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare xo ∗ owns (c : Thread nD τ) arg5 fullShare x5 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ owns (c : Thread nD τ) arg4 fullShare xo
                ∗ owns (c : Thread nD τ) arg5 fullShare (cacheStore arg5 harg5 i hc1 x5 (k0_pay5 x0))
                ∗ owns (c : Thread nD τ) arg6 fullShare (k0_pay7 x0 x1 xs1)
                ∗ owns (c : Thread nD τ) arg7 fullShare (k0_pay8 x1 xs2)) -∗ K ⟨⟩))
          ⊢ wp frame (wpE (defs₀ (F := F)) Variants.none c none) E (cc0__fused_kernel i arg2 harg2 arg3 harg3 arg4 harg4 arg5 harg5 arg6 harg6 arg7 harg7) K := by
    simp only [cc0__fused_kernel_eq_skeleton]; unfold cc0__fused_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]
    · iexists _; isplitr; swap; · iexact HS0
      ipureintro
      unfold cacheStore
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    isplitl [HS1]
    · iexists _; isplitr; swap; · iexact HS1
      ipureintro
      rw [View.read_writes_eq_canon _ _ _ (fun y => ⟨_, List.mem_singleton_self _, View.mem_set_unit_zero zero2 inb_S512x128_S512x128_0_0 y⟩),
        View.canon_unit_zero zero2]
      sl_unfold_run_names
      simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
      try rfl
    iexists _; isplitr; swap; · iexact HS2
    ipureintro
    rw [View.read_writes_eq_canon _ _ _ (fun y => ⟨_, List.mem_singleton_self _, View.mem_set_unit_zero zero2 inb_S1x128_S1x128_0_0 y⟩),
      View.canon_unit_zero zero2]
    sl_unfold_run_names
    simp only [View.readAt_eq_ld, harg2.read_unread, harg3.read_unread, harg4.read_unread, harg5.read_unread, harg6.read_unread, harg7.read_unread,
        View.readCov_unit_zero (S := S512x128) _ zero2, View.readCov_unit_zero (S := S1x128) _ zero2,
        View.ld_unit_zero (S := S1x128) zero2, View.ld_unit_zero (S := S512x128) zero2, View.ld_unit_zero (S := S1024x128) zero2, View.ld_unit_zero (S := S1024x512) zero2]
    try rfl

set_option maxHeartbeats 1000000 in
/-- A second-pass point (first and second conditional skipped, third taken): the body reads 1024 cached rows, the class
    sums and the class sizes, and adds the tile's loss, in lane 0, to the output row; everything else is left as found. -/
theorem runC (c : Dev nD) (i : grid0.Coords) (arg2 : Memref sig .tc .vmem S1024x512 .f32) (harg2 : arg2.IsWhole) (arg3 : Memref sig .tc .vmem S1024x128 .bf16) (harg3 : arg3.IsWhole) (arg4 : Memref sig .tc .vmem S1x128 .f32) (harg4 : arg4.IsWhole) (arg5 : Memref sig .tc .vmem S8192x512 .bf16) (harg5 : arg5.IsWhole) (arg6 : Memref sig .tc .vmem S512x128 .f32) (harg6 : arg6.IsWhole) (arg7 : Memref sig .tc .vmem S1x128 .f32) (harg7 : arg7.IsWhole) (hc0 : ¬cond0_0 i) (hc1 : ¬cond0_1 i) (hc2 : cond0_2 i)
    (x0 : Vec F S1024x512 .f32) (x1 : Vec F S1024x128 .bf16) (xo : Vec F S1x128 .f32) (x5 : Vec F S8192x512 .bf16) (xs1 : Vec F S512x128 .f32) (xs2 : Vec F S1x128 .f32)
    (E : Set ℕ) (K : PUnit → sProp 𝕄) :
        iprop(owns (c : Thread nD τ) arg2 fullShare x0 ∗ owns (c : Thread nD τ) arg3 fullShare x1 ∗ owns (c : Thread nD τ) arg4 fullShare xo ∗ owns (c : Thread nD τ) arg5 fullShare x5 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ owns (c : Thread nD τ) arg4 fullShare (k0_pay9 (k0_pay10 (cacheRows i hc2 x5) xs1 xs2 x1) laneIota k0_pay11 xo)
                ∗ owns (c : Thread nD τ) arg5 fullShare x5 ∗ owns (c : Thread nD τ) arg6 fullShare xs1 ∗ owns (c : Thread nD τ) arg7 fullShare xs2) -∗ K ⟨⟩))
          ⊢ wp frame (wpE (defs₀ (F := F)) Variants.none c none) E (cc0__fused_kernel i arg2 harg2 arg3 harg3 arg4 harg4 arg5 harg5 arg6 harg6 arg7 harg7) K := by
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hfs0; obtain rfl := harg6.eq_unread hfs1; obtain rfl := harg7.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_singleton_self _, View.mem_set_unit_zero zero2 inb_S1x128_S1x128_0_0 y⟩),
        View.canon_unit_zero zero2]
      sl_unfold_run_names
      simp only [View.readAt_eq_ld, harg3.read_unread, harg4.read_unread, harg5.read_unread, harg6.read_unread, harg7.read_unread,
        View.ld_unit_zero (S := S1x128) zero2, View.ld_unit_zero (S := S512x128) zero2, View.ld_unit_zero (S := S1024x128) zero2]
      rfl
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.KernelIdeal.Hand

end
-- ==== Proof.KFrameIdeal.lean ====
/-
  The frame of the fused kernel: what its scratch buffers and its output row hold after each of the sixteen grid points,
  the invariant that carries those contents from point to point, and the run of the whole program.

  Two scratch accumulators (class sums, class sizes) and the output row follow the recursions of the accumulation module.
  The third scratch, the cache of normalised rows, is filled 1024 rows per first-pass point: after point n its rows below
  1024·(n+1) (all of them once the first pass is over) are the normalised feature rows, tile by tile; the other rows are
  whatever they were, so the invariant holds the cache at SOME contents with that property.
-/
import proofs.«174399_j33268816675395_2_alg».proof.Proof.KBodyIdeal
import proofs.«174399_j33268816675395_2_alg».proof.Proof.KAccIdeal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch operands and the tiles -/

/-- The three scratch operands as whole memrefs: the cache of normalised rows, the class sums, the class sizes. -/
abbrev scM0 : Memref sig .tc .vmem S8192x512 .bf16 := Memref.whole cc0_scratch0
abbrev scM1 : Memref sig .tc .vmem S512x128 .f32 := Memref.whole cc0_scratch1
abbrev scM2 : Memref sig .tc .vmem S1x128 .f32 := Memref.whole cc0_scratch2

/-- What the launch hands the body besides the windows: the three scratch buffers at some contents and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The feature tile and the indicator tile that point number `n` is handed (anything past the grid). -/
def xblk (c : Dev nD) (n : ℕ) : Vec F S1024x512 .f32 :=
  if h : n < cfg0.N then iblk m c 0 ⟨n, h⟩ else fun _ => Classical.choice (Elt.nonempty F .f32)
def oblk (c : Dev nD) (n : ℕ) : Vec F S1024x128 .bf16 :=
  if h : n < cfg0.N then iblk m c 1 ⟨n, h⟩ else fun _ => Classical.choice (Elt.nonempty F .bf16)

theorem xblk_fin (c : Dev nD) (t : Fin cfg0.N) : xblk m c t.val = iblk m c 0 t := dif_pos t.isLt
theorem oblk_fin (c : Dev nD) (t : Fin cfg0.N) : oblk m c t.val = iblk m c 1 t := dif_pos t.isLt

/-! ## The cache of normalised rows -/

/-- Row `y 0` of tile `t` of the cache, column `y 1`. -/
def rowAt (t : Fin 8) (y : S1024x512.Idx) : S8192x512.Idx :=
  ValueIdx.ix2 (⟨1024 * t.val + (y 0).val, by have := ValueIdx.idx2_lt0 y; omega⟩ : Fin 8192)
    (⟨(y 1).val, ValueIdx.idx2_lt1 y⟩ : Fin 512)

/-- The first `n + 1` tiles of the cache (at most eight) hold the normalised feature tiles. -/
def CacheOK (c : Dev nD) (n : ℕ) (X5 : Vec F S8192x512 .bf16) : Prop :=
  ∀ (t : Fin 8) (y : S1024x512.Idx), t.val ≤ n → X5 (rowAt t y) = k0_pay5 (xblk m c t.val) y

theorem CacheOK.mono {c : Dev nD} {n n' : ℕ} {X5 : Vec F S8192x512 .bf16} (h : CacheOK m c n X5) (hn : 7 ≤ n) :
    CacheOK m c n' X5 := fun t y _ => h t y (by have := t.isLt; omega)

/-- Where a first-pass point stores its rows and where a second-pass point reads them: tile (point mod 8), column 0. -/
theorem off1_eq : ∀ t : Fin grid0.N, k0_off1 (grid0.coords t) = ![1024 * (t.val % 8), 0] := by decide +kernel
theorem off2_eq : ∀ t : Fin grid0.N, k0_off2 (grid0.coords t) = ![1024 * (t.val % 8), 0] := by decide +kernel

/-- A second-pass point reads, from a cache whose eight tiles are in place, the normalised tile of its first-pass twin. -/
theorem cacheRows_eq (c : Dev nD) (t : Fin cfg0.N) (h8 : 8 ≤ t.val) (hc2 : cond0_2 (grid0.coords t))
    (X5 : Vec F S8192x512 .bf16) (hX : CacheOK m c 7 X5) :
    cacheRows (grid0.coords t) hc2 X5 = k0_pay5 (xblk m c (t.val - 8)) := by
  have hN : t.val < 16 := lt_of_lt_of_eq t.isLt N_0
  funext y
  rw [← hX ⟨t.val - 8, by omega⟩ y (by show t.val - 8 ≤ 7; omega)]
  unfold cacheRows View.ld
  congr 1
  funext a; apply Fin.ext
  have e := off2_eq t
  match a with
  | ⟨0, _⟩ =>
    show k0_off2 (grid0.coords t) 0 + 1 * (y 0).val = 1024 * (t.val - 8) + (y 0).val
    rw [e]; show 1024 * (t.val % 8) + 1 * (y 0).val = _; omega
  | ⟨1, _⟩ =>
    show k0_off2 (grid0.coords t) 1 + 1 * (y 1).val = (y 1).val
    rw [e]; show 0 + 1 * (y 1).val = _; omega

/-- Reading the cache after one store of 1024 whole rows at row `o`: a row of the band reads the stored tile, -/
theorem read_store_hit (v : View sig .tc .vmem S8192x512 .bf16) (f : v.ty.Contents (Elt F)) (off : Fin 2 → ℕ)
    (inb : ∀ a, off a + S1024x512.size a ≤ S8192x512.size a) (w : Vec F S1024x512 .bf16) (o : ℕ) (e : off = ![o, 0])
    (y' : S8192x512.Idx) (y : S1024x512.Idx) (h0 : (y' (0 : Fin 2)).val = o + (y (0 : Fin 2)).val)
    (h1 : (y' (1 : Fin 2)).val = (y (1 : Fin 2)).val) :
    v.read (Elt F) (v.writes (Elt F) f [(⟨Rect.unit (s := S8192x512) off S1024x512.size inb, w⟩ : View.Piece (Elt F) S8192x512 .bf16)]) y' = w y :=
  View.read_writes_cons_rows_of_mem v f inb w [] y' y e h0 h1

/-- and a row outside the band reads what was there. -/
theorem read_store_miss (v : View sig .tc .vmem S8192x512 .bf16) (f : v.ty.Contents (Elt F)) (off : Fin 2 → ℕ)
    (inb : ∀ a, off a + S1024x512.size a ≤ S8192x512.size a) (w : Vec F S1024x512 .bf16) (o : ℕ) (e : off = ![o, 0])
    (y' : S8192x512.Idx) (h : (y' (0 : Fin 2)).val < o ∨ o + 1024 ≤ (y' (0 : Fin 2)).val) :
    v.read (Elt F) (v.writes (Elt F) f [(⟨Rect.unit (s := S8192x512) off S1024x512.size inb, w⟩ : View.Piece (Elt F) S8192x512 .bf16)]) y' = v.read (Elt F) f y' :=
  (View.read_writes_cons_rows_of_not_mem v f inb w [] y' e rfl h).trans (by rw [View.writes_nil])

/-- A first-pass point's store puts its tile in place and keeps the tiles before it. -/
theorem cacheStore_ok (c : Dev nD) (t : Fin cfg0.N) (h8 : t.val < 8) (hc1 : cond0_1 (grid0.coords t))
    (X5 : Vec F S8192x512 .bf16) (hX : ∀ n, t.val = n + 1 → CacheOK m c n X5) :
    CacheOK m c t.val (cacheStore scM0 (Memref.isWhole_whole _) (grid0.coords t) hc1 X5 (k0_pay5 (xblk m c t.val))) := by
  intro t' y hle
  have e : k0_off1 (grid0.coords t) = ![1024 * t.val, 0] := by rw [off1_eq t, Nat.mod_eq_of_lt h8]
  unfold cacheStore
  by_cases ht : t'.val = t.val
  · rw [read_store_hit scM0.view _ _ (k0_off1_inb (grid0.coords t) hc1) _ (1024 * t.val) e (rowAt t' y) y
      (by show 1024 * t'.val + (y 0).val = 1024 * t.val + (y 0).val; rw [ht]) rfl, ht]
  · rw [read_store_miss scM0.view _ _ (k0_off1_inb (grid0.coords t) hc1) _ (1024 * t.val) e (rowAt t' y)
      (Or.inl (by show 1024 * t'.val + (y 0).val < 1024 * t.val; have := ValueIdx.idx2_lt0 y; omega)),
      Memref.IsWhole.read_unread]
    obtain ⟨n, hn⟩ : ∃ n, t.val = n + 1 := ⟨t.val - 1, by omega⟩
    exact hX n hn t' y (by omega)

/-! ## The invariant and the proof data -/

/-- The invariant before point number `n`: what the launch hands over before the first point; afterwards the cache at some
    contents whose first tiles are in place, the two accumulators at the recursion's values, the generator register at
    some state. -/
def Phi (c : Dev nD) : ℕ → sProp 𝕄
  | 0 => Pipeline.ΦA spec0 c
  | n + 1 => iprop(iprop((∃ X5, ⌜CacheOK m c n X5⌝ ∗ owns (c : Thread nD τ) scM0 fullShare X5)
      ∗ owns (c : Thread nD τ) scM1 fullShare (accG (xblk m c) (oblk m c) n)
      ∗ owns (c : Thread nD τ) scM2 fullShare (accC (oblk m c) n)) ∗ (∃ r, prngReg c r))

theorem Phi_succ (c : Dev nD) (n : ℕ) :
    Phi m c (n + 1) = iprop(iprop((∃ X5, ⌜CacheOK m c n X5⌝ ∗ owns (c : Thread nD τ) scM0 fullShare X5)
      ∗ owns (c : Thread nD τ) scM1 fullShare (accG (xblk m c) (oblk m c) n)
      ∗ owns (c : Thread nD τ) scM2 fullShare (accC (oblk m c) n)) ∗ (∃ r, prngReg c r)) := rfl

theorem Phi_pos (c : Dev nD) (n : ℕ) (hn : n ≠ 0) :
    Phi m c n = iprop(iprop((∃ X5, ⌜CacheOK m c (n - 1) X5⌝ ∗ owns (c : Thread nD τ) scM0 fullShare X5)
      ∗ owns (c : Thread nD τ) scM1 fullShare (accG (xblk m c) (oblk m c) (n - 1))
      ∗ owns (c : Thread nD τ) scM2 fullShare (accC (oblk m c) (n - 1))) ∗ (∃ r, prngReg c r)) := by
  cases n with
  | zero => exact absurd rfl hn
  | succ n => rfl

/-- The proof data of the pipeline on core `c`: the arrays as the region finds them; after the body at point `t` each input's
    buffer at its block and the output row at the recursion's value; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accO (xblk m c) (oblk m c) t.val
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accO (xblk m c) (oblk m c) t.val := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The output row between points -/

/-- The output window is never fetched, is written back at the last point only, and is idle exactly at points 1 to 7;
    the input windows are never idle. -/
theorem fetch0_2 : ∀ t : Fin cfg0.N, (cfg0.win 2).fetch t = false :=
  (by decide +kernel : ∀ t : Fin grid0.N, win0_2.fetch t = false)
theorem idle0_2 : ∀ t : Fin cfg0.N, cfg0.idle 2 (grid0.coords t) = decide (1 ≤ t.val ∧ t.val < 8) := by decide +kernel
theorem liveAt0_0 : ∀ t : Fin cfg0.N, cfg0.idle 0 (grid0.coords t) = false := by decide +kernel
theorem liveAt0_1 : ∀ t : Fin cfg0.N, cfg0.idle 1 (grid0.coords t) = false := by decide +kernel

/-- After the first point the output row's buffer holds, when the body runs, what the point before left: its own store if
    it stored, else (points 1 to 7) what it had found, which by the recursion is the same row. -/
theorem before0_2 (c : Dev nD) : ∀ (n : ℕ) (hn : n < cfg0.N), n ≠ 0 → ∀ d,
    (dats m 0 c).before 2 ⟨n, hn⟩ d = accO (xblk m c) (oblk m c) (n - 1)
  | 0, _, h, _ => absurd rfl h
  | n + 1, hn, _, d => by
    have hN : n + 1 < 16 := lt_of_lt_of_eq hn N_0
    rw [Dat.before_of_pos _ 2 ⟨n + 1, hn⟩ (Nat.succ_ne_zero n) (fetch0_2 _) d]
    have hfl : (cfg0.win 2).flush ⟨n + 1 - 1, Nat.lt_of_le_of_lt (Nat.sub_le _ _) hn⟩ = false := by
      cases hf : (cfg0.win 2).flush ⟨n + 1 - 1, Nat.lt_of_le_of_lt (Nat.sub_le _ _) hn⟩
      · rfl
      · have := (flush0_2 _).mp hf; simp only [Nat.add_sub_cancel] at this; omega
    rw [hfl, if_neg Bool.false_ne_true]
    unfold Dat.left
    rw [idle0_2]
    by_cases hi : 1 ≤ n ∧ n < 8
    · rw [decide_eq_true (by simpa using hi)]
      dsimp only
      have := before0_2 c n (Nat.lt_of_succ_lt hn) (by omega) d
      simp only [Nat.add_sub_cancel]
      rw [this]
      obtain ⟨k, rfl⟩ : ∃ k, n = k + 1 := ⟨n - 1, by omega⟩
      rw [Nat.add_sub_cancel, accO_succ_lt _ _ k (by omega)]
    · rw [decide_eq_false (by simpa using hi)]
      dsimp only
      simp only [Nat.add_sub_cancel]
      show (dats m 0 c).after 2 ⟨n, _⟩ = _
      rw [after0_2]

/-! ## The body obligation -/

/-- Each window's current staging memref at point `t`, as the pipeline passes it, and its wholeness. -/
abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)

/-- The three conditions over the grid: the first holds at point 0 only, the second through the first pass, the third
    through the second pass. -/
theorem hcond0 : ∀ t : Fin cfg0.N, cond0_0 (grid0.coords t) ↔ t.val = 0 :=
  (by decide +kernel : ∀ t : Fin grid0.N, cond0_0 (grid0.coords t) ↔ t.val = 0)
theorem hcond1 : ∀ t : Fin cfg0.N, cond0_1 (grid0.coords t) ↔ t.val < 8 :=
  (by decide +kernel : ∀ t : Fin grid0.N, cond0_1 (grid0.coords t) ↔ t.val < 8)
theorem hcond2 : ∀ t : Fin cfg0.N, cond0_2 (grid0.coords t) ↔ 8 ≤ t.val :=
  (by decide +kernel : ∀ t : Fin grid0.N, cond0_2 (grid0.coords t) ↔ 8 ≤ t.val)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [liveAt0_0 t, after0_0]
theorem leaves1 (c : Dev nD) (t : Fin cfg0.N) :
    (dats m 0 c).leavesExact 1 t = owns (c : Thread nD τ) (ms1 t) fullShare (iblk m c 1 t) := by
  unfold Dat.leavesExact; rw [liveAt0_1 t, after0_1]
theorem leaves2_live (c : Dev nD) (t : Fin cfg0.N) (h : ¬(1 ≤ t.val ∧ t.val < 8)) :
    (dats m 0 c).leavesExact 2 t = owns (c : Thread nD τ) (ms2 t) fullShare (accO (xblk m c) (oblk m c) t.val) := by
  unfold Dat.leavesExact; rw [idle0_2 t, decide_eq_false h, after0_2]
theorem leaves2_idle (c : Dev nD) (t : Fin cfg0.N) (h : 1 ≤ t.val ∧ t.val < 8) :
    (dats m 0 c).leavesExact 2 t = iprop(∃ d, owns (c : Thread nD τ) (ms2 t) fullShare ((dats m 0 c).before 2 t d)) := by
  have hN : t.val < 16 := lt_of_lt_of_eq t.isLt N_0
  have hfl : (cfg0.win 2).flush t = false := by
    cases hf : (cfg0.win 2).flush t
    · rfl
    · have := (flush0_2 t).mp hf; omega
  unfold Dat.leavesExact; rw [idle0_2 t, decide_eq_true h, hfl]

set_option maxHeartbeats 4800000 in
/-- The body at any point: the inputs' memrefs hold their blocks; the conditions say which of the three runs applies; the
    invariant hands the body the scratch buffers at what the point before left and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves0, leaves1]
  have hN : t.val < 16 := lt_of_lt_of_eq t.isLt N_0
  by_cases h0 : t.val = 0
  · -- the first point
    have hc0 : cond0_0 (grid0.coords t) := (hcond0 t).mpr h0
    have hc1 : cond0_1 (grid0.coords t) := (hcond1 t).mpr (by omega)
    have hc2 : ¬cond0_2 (grid0.coords t) := fun h => by have := (hcond2 t).mp h; omega
    rw [leaves2_live m c t (by omega), h0, show Phi m c 0 = Pipeline.ΦA spec0 c from rfl, PhiA_eq]
    iintro ⟨⟨⟨⟨%x5, HS0⟩, ⟨%xs1, HS1⟩, ⟨%xs2, HS2⟩⟩, Hg⟩, Ho, ⟨%d0, H0⟩, ⟨%d1, H1⟩, ⟨%d2, H2⟩⟩
    iapply (runA c (grid0.coords t) _ (hs0 t) _ (hs1 t) _ (hs2 t) scM0 (Memref.isWhole_whole _) scM1 (Memref.isWhole_whole _) scM2 (Memref.isWhole_whole _) hc0 hc1 hc2 (iblk m c 0 t) (iblk m c 1 t) _ x5 xs1 xs2 Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · rw [Phi_succ]
      isplitl [HS0 HS1 HS2]
      · isplitl [HS0]
        · iexists _; isplitr; swap; · iexact HS0
          ipureintro
          have := cacheStore_ok m c t (by omega) hc1 x5 (fun n hn => by omega)
          rw [h0] at this; rw [← xblk_fin m c t, h0]; exact this
        isplitl [HS1]
        · rw [accG, ← xblk_fin m c t, ← oblk_fin m c t, h0]; iexact HS1
        rw [accC, ← oblk_fin m c t, h0]; iexact HS2
      iexact Hg
    isplitl [Ho]; · iexact Ho
    isplitl [H0]; · iexact H0
    isplitl [H1]; · iexact H1
    rw [accO]; iexact H2
  · obtain ⟨n, hn⟩ : ∃ n, t.val = n + 1 := ⟨t.val - 1, by omega⟩
    rw [Phi_pos m c t.val h0]
    by_cases h1 : t.val < 8
    · -- a later point of the first pass
      have hc0 : ¬cond0_0 (grid0.coords t) := fun h => h0 ((hcond0 t).mp h)
      have hc1 : cond0_1 (grid0.coords t) := (hcond1 t).mpr h1
      have hc2 : ¬cond0_2 (grid0.coords t) := fun h => by have := (hcond2 t).mp h; omega
      rw [leaves2_idle m c t (by omega)]
      iintro ⟨⟨⟨⟨%x5, %hx5, HS0⟩, HS1, HS2⟩, Hg⟩, Ho, ⟨%d0, H0⟩, ⟨%d1, H1⟩, ⟨%d2, H2⟩⟩
      iapply (runB c (grid0.coords t) _ (hs0 t) _ (hs1 t) _ (hs2 t) scM0 (Memref.isWhole_whole _) scM1 (Memref.isWhole_whole _) scM2 (Memref.isWhole_whole _) hc0 hc1 hc2 (iblk m c 0 t) (iblk m c 1 t) _ x5 _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · rw [Phi_succ]
        isplitl [HS0 HS1 HS2]
        · isplitl [HS0]
          · iexists _; isplitr; swap; · iexact HS0
            ipureintro
            rw [← xblk_fin m c t]
            exact cacheStore_ok m c t h1 hc1 x5 (fun n' hn' => by
              have : t.val - 1 = n' := by omega
              rw [← this]; exact hx5)
          isplitl [HS1]
          · rw [show accG (xblk m c) (oblk m c) t.val = k0_pay7 (iblk m c 0 t) (iblk m c 1 t) (accG (xblk m c) (oblk m c) (t.val - 1)) from by
              rw [← xblk_fin m c t, ← oblk_fin m c t, hn, Nat.add_sub_cancel]; exact accG_succ_lt _ _ n (by omega)]
            iexact HS1
          rw [show accC (oblk m c) t.val = k0_pay8 (iblk m c 1 t) (accC (oblk m c) (t.val - 1)) from by
            rw [← oblk_fin m c t, hn, Nat.add_sub_cancel]; exact accC_succ_lt _ n (by omega)]
          iexact HS2
        iexact Hg
      isplitl [Ho]; · iexact Ho
      isplitl [H0]; · iexact H0
      isplitl [H1]; · iexact H1
      iexists _; iexact H2
    · -- a point of the second pass
      have hc0 : ¬cond0_0 (grid0.coords t) := fun h => h0 ((hcond0 t).mp h)
      have hc1 : ¬cond0_1 (grid0.coords t) := fun h => h1 ((hcond1 t).mp h)
      have hc2 : cond0_2 (grid0.coords t) := (hcond2 t).mpr (by omega)
      rw [leaves2_live m c t (by omega)]
      iintro ⟨⟨⟨⟨%x5, %hx5, HS0⟩, HS1, HS2⟩, Hg⟩, Ho, ⟨%d0, H0⟩, ⟨%d1, H1⟩, ⟨%d2, H2⟩⟩
      have hb2 := before0_2 m c t.val t.isLt h0 d2
      rw [show (⟨t.val, t.isLt⟩ : Fin cfg0.N) = t from rfl] at hb2
      rw [hb2]
      iapply (runC c (grid0.coords t) _ (hs0 t) _ (hs1 t) _ (hs2 t) scM0 (Memref.isWhole_whole _) scM1 (Memref.isWhole_whole _) scM2 (Memref.isWhole_whole _) hc0 hc1 hc2 (iblk m c 0 t) (iblk m c 1 t) _ x5 _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      have hx7 : CacheOK m c 7 x5 := hx5.mono m (by omega)
      isplitl [HS0 HS1 HS2 Hg]
      · rw [Phi_succ]
        isplitl [HS0 HS1 HS2]
        · isplitl [HS0]
          · iexists _; isplitr; swap; · iexact HS0
            ipureintro; exact hx5.mono m (by omega)
          isplitl [HS1]
          · rw [show accG (xblk m c) (oblk m c) t.val = accG (xblk m c) (oblk m c) (t.val - 1) from by
              rw [hn, Nat.add_sub_cancel]; exact accG_succ_ge _ _ n (by omega)]
            iexact HS1
          rw [show accC (oblk m c) t.val = accC (oblk m c) (t.val - 1) from by
            rw [hn, Nat.add_sub_cancel]; exact accC_succ_ge _ n (by omega)]
          iexact HS2
        iexact Hg
      isplitl [Ho]; · iexact Ho
      isplitl [H0]; · iexact H0
      isplitl [H1]; · iexact H1
      rw [show accO (xblk m c) (oblk m c) t.val
          = k0_pay9 (k0_pay10 (cacheRows (grid0.coords t) hc2 x5) (accG (xblk m c) (oblk m c) (t.val - 1)) (accC (oblk m c) (t.val - 1)) (iblk m c 1 t)) laneIota k0_pay11 (accO (xblk m c) (oblk m c) (t.val - 1)) from by
        rw [cacheRows_eq m c t (by omega) hc2 x5 hx7, ← oblk_fin m c t]
        conv_lhs => rw [hn]
        rw [accO_succ_ge _ _ n (by omega), ← hn, hn, Nat.add_sub_cancel]]
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  exact (show Pipeline.ΦA spec0 c ⊢ Pipeline.ΦA spec0 c from Idealize.SL.BI.Entails.refl _)

/-- After the last point the invariant gives it back: the named contents are forgotten. -/
theorem hout (c : Dev nD) : (dats m 0 c).Φ (Fin.last cfg0.N) ⊢ Pipeline.ΦA spec0 c := by
  have hN : cfg0.N = 16 := N_0
  rw [show (dats m 0 c).Φ (Fin.last cfg0.N) = Phi m c cfg0.N from rfl, Phi_pos m c _ (by omega), PhiA_eq]
  iintro ⟨⟨⟨%x5, -, HS0⟩, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of the program terminates; every array of the pipeline ends at what the proof data
    computes, and every other unscoped buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The two arrangements of the contrastive loss as functions of the argument arrays, index by index, on the
  extended reals.

  Rows are normalised by their Euclidean norm clamped below by ε: xn r k = X r k / max (√(Σ_k X r k²)) ε.
  With oh r c the indicator that row r carries label c and cnt c = Σ_r oh r c the size of class c:

  * the blocked arrangement first forms the class sums g k c = Σ_r xn r k · oh r c and then, per row,
      avg r c = (cnt c − Σ_k xn r k · g k c) / (cnt c + ε);
  * the pairwise arrangement forms every distance d r j = 1 − Σ_k xn r k · xn j k and then
      avg r c = (Σ_j d r j · oh j c) / (cnt c + ε).

  Either way the loss is the mean over rows of Σ_c max(margin − avg·oh, 0)² + max(1 − avg·(1 − oh), 0)², the blocked
  one summing over 128 lanes of which only the first ten count, the pairwise one over the ten classes.
-/
import Idealize.ShloMosaic.PureOps.Ideal
import Idealize.ShloMosaic.Lib.ValueIdx

noncomputable section

open scoped BigOperators

namespace Cert.ContrastSpec

open Idealize.ShloMosaic Idealize.ShloMosaic.ValueIdx

/-- The feature matrix: 8192 rows of 512 features. -/
abbrev Mat : Type := (⟨2, ![8192, 512]⟩ : Shape).Idx → EReal
/-- The label vector: one 32-bit word per row. -/
abbrev Lab : Type := (⟨1, ![8192]⟩ : Shape).Idx → BitVec 32

/-- ε, the clamp of the norms and of the class sizes: the binary32 nearest 1e-8. -/
def eps : EReal := Ideal.ofBits .f32 0x322BCC77#32
/-- The binary32 one. -/
def one : EReal := Ideal.ofBits .f32 0x3F800000#32
/-- The positive margin: the binary32 nearest 0.4. -/
def margin : EReal := Ideal.ofBits .f32 0x3ECCCCCD#32
/-- The binary32 zero. -/
def zero : EReal := Ideal.ofBits .f32 0x00000000#32
/-- The number of rows as a binary32: 8192. -/
def count : EReal := Ideal.ofBits .f32 0x46000000#32

/-- The indicator that row `r` carries label `c`. -/
def oh (L : Lab) (r : Fin 8192) (c : ℕ) : EReal := if L (ix1 r) = BitVec.ofNat 32 c then 1 else 0

/-- The clamped Euclidean norm of row `r`. -/
def nrm (X : Mat) (r : Fin 8192) : EReal :=
  max (Ideal.sqrt (∑ k : Fin 512, X (ix2 r k) * X (ix2 r k))) eps

/-- The normalised feature matrix. -/
def xn (X : Mat) (r : Fin 8192) (k : Fin 512) : EReal := Ideal.div (X (ix2 r k)) (nrm X r)

/-- The size of class `c`. -/
def cnt (L : Lab) (c : ℕ) : EReal := ∑ r : Fin 8192, oh L r c

/-- The two hinge terms of one (row, class) pair, squared and added: `d` the average distance, `o` the indicator. -/
def hinge (d o : EReal) : EReal :=
  max (margin - d * o) zero * max (margin - d * o) zero
    + max (one - d * (one - o)) zero * max (one - d * (one - o)) zero

/-! ## The blocked arrangement -/

/-- The sum of the normalised rows of class `c`, feature `k`. -/
def gsum (X : Mat) (L : Lab) (k : Fin 512) (c : ℕ) : EReal := ∑ r : Fin 8192, xn X r k * oh L r c

/-- Row `r`'s average distance to class `c`, from the class sums. -/
def kavg (X : Mat) (L : Lab) (r : Fin 8192) (c : ℕ) : EReal :=
  Ideal.div (cnt L c - ∑ k : Fin 512, xn X r k * gsum X L k c) (cnt L c + eps)

/-- The loss, summed over 128 lanes of which the first ten count. -/
def kernelLoss (X : Mat) (L : Lab) : EReal :=
  Ideal.div (∑ r : Fin 8192, ∑ c : Fin 128,
    hinge (kavg X L r c.val) (oh L r c.val) * (if c.val < 10 then (1 : EReal) else 0)) count

/-! ## The pairwise arrangement -/

/-- The cosine distance of rows `r` and `j`. -/
def dist (X : Mat) (r j : Fin 8192) : EReal := one - ∑ k : Fin 512, xn X r k * xn X j k

/-- Row `r`'s average distance to class `c`, from the pairwise distances. -/
def ravg (X : Mat) (L : Lab) (r : Fin 8192) (c : ℕ) : EReal :=
  Ideal.div (∑ j : Fin 8192, dist X r j * oh L j c) (cnt L c + eps)

/-- The loss, summed over the ten classes. -/
def refLoss (X : Mat) (L : Lab) : EReal :=
  Ideal.div (∑ r : Fin 8192, ∑ c : Fin 10, hinge (ravg X L r c.val) (oh L r c.val)) count

end Cert.ContrastSpec

end
-- ==== Proof.LibMatmulK.lean ====
/-
  Rank-2 matrix products accumulated into the zero matrix, read at an entry over the extended reals: two whose LEFT
  operand is contracted along its row axis, and the plain product,
    [K, a] × [b, K] → [a, b]   entry (i, j) = ∑ k, lhs (k, i) · rhs (j, k)      (transpose of the left times transpose of the right)
    [K, a] × [K, b] → [a, b]   entry (i, j) = ∑ k, lhs (k, i) · rhs (k, j)      (transpose of the left times the right)
    [a, K] × [K, b] → [a, b]   entry (i, j) = ∑ k, lhs (i, k) · rhs (k, j)      (the left times the right)
  The sums run over the contracted extent itself, not over the contraction's own index type.
-/
import Idealize.ShloMosaic.PureOps.Ideal.Laws
import Idealize.ShloMosaic.Lib.ValueIdx

open scoped BigOperators

noncomputable section

namespace Cert.LibMatmulK

open Idealize.ShloMosaic Idealize.ShloMosaic.ValueIdx

/-- A product `[K, a] × [b, K] → [a, b]` into a zero accumulator at entry `(i, j)`: the dimension numbers contract one
    axis of extent `K` (`hr`, `hs`) and pair, at result index `y` and contraction index `q`, the left entry `(q, y₀)`
    (`hl0`, `hl1`) with the right entry `(y₁, q)` (`hr0`, `hr1`); the contraction's index set is matched with `Fin K`. -/
theorem matmul_KA_BK_zero {a K b : Nat} {φ₁ φ₂ : FTy}
    (d : DotDims ⟨2, ![K, a]⟩ ⟨2, ![b, K]⟩ ⟨2, ![a, b]⟩) (prec : Option ContractPrecision)
    (hr : d.contr.rank = 1) (hs : d.contr.size ⟨0, by omega⟩ = K)
    (hl0 : ∀ y q, (d.lhsIdx y q 0).val = (q ⟨0, by omega⟩).val)
    (hl1 : ∀ y q, (d.lhsIdx y q 1).val = (y 0).val)
    (hr0 : ∀ y q, (d.rhsIdx y q 0).val = (y 1).val)
    (hr1 : ∀ y q, (d.rhsIdx y q 1).val = (q ⟨0, by omega⟩).val)
    (lhs : FVec Ideal ⟨2, ![K, a]⟩ φ₁) (rhs : FVec Ideal ⟨2, ![b, K]⟩ φ₂) (i : Fin a) (j : Fin b) :
    FloatOps.matmul d prec lhs rhs (constant ⟨2, ![a, b]⟩ .f32 0x00000000#32) (ix2 i j)
      = ∑ k : Fin K, lhs (ix2 k i) * rhs (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun x => Fin.ext (by
    match x with
    | ⟨0, _⟩ => exact (hl0 _ _).trans hk
    | ⟨1, _⟩ => exact hl1 _ _)
  have er : d.rhsIdx (ix2 i j) ((contrEquiv1 d K hr hs).symm k) = ix2 j k := funext fun x => Fin.ext (by
    match x with
    | ⟨0, _⟩ => exact hr0 _ _
    | ⟨1, _⟩ => exact (hr1 _ _).trans hk)
  rw [el, er]

/-- A product `[K, a] × [K, b] → [a, b]` into a zero accumulator at entry `(i, j)`: the dimension numbers contract the
    row axis of both operands, pairing the left entry `(q, y₀)` with the right entry `(q, y₁)`. -/
theorem matmul_KA_KB_zero {a K b : Nat} {φ₁ φ₂ : FTy}
    (d : DotDims ⟨2, ![K, a]⟩ ⟨2, ![K, b]⟩ ⟨2, ![a, b]⟩) (prec : Option ContractPrecision)
    (hr : d.contr.rank = 1) (hs : d.contr.size ⟨0, by omega⟩ = K)
    (hl0 : ∀ y q, (d.lhsIdx y q 0).val = (q ⟨0, by omega⟩).val)
    (hl1 : ∀ y q, (d.lhsIdx y q 1).val = (y 0).val)
    (hr0 : ∀ y q, (d.rhsIdx y q 0).val = (q ⟨0, by omega⟩).val)
    (hr1 : ∀ y q, (d.rhsIdx y q 1).val = (y 1).val)
    (lhs : FVec Ideal ⟨2, ![K, a]⟩ φ₁) (rhs : FVec Ideal ⟨2, ![K, b]⟩ φ₂) (i : Fin a) (j : Fin b) :
    FloatOps.matmul d prec lhs rhs (constant ⟨2, ![a, b]⟩ .f32 0x00000000#32) (ix2 i j)
      = ∑ k : Fin K, lhs (ix2 k i) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun x => Fin.ext (by
    match x with
    | ⟨0, _⟩ => exact (hl0 _ _).trans hk
    | ⟨1, _⟩ => exact hl1 _ _)
  have er : d.rhsIdx (ix2 i j) ((contrEquiv1 d K hr hs).symm k) = ix2 k j := funext fun x => Fin.ext (by
    match x with
    | ⟨0, _⟩ => exact (hr0 _ _).trans hk
    | ⟨1, _⟩ => exact hr1 _ _)
  rw [el, er]

/-- A product `[a, K] × [K, b] → [a, b]` into a zero accumulator at entry `(i, j)`: the plain product, the left entry
    `(y₀, q)` paired with the right entry `(q, y₁)`. -/
theorem matmul_AK_KB_zero {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ y q, (d.lhsIdx y q 0).val = (y 0).val)
    (hl1 : ∀ y q, (d.lhsIdx y q 1).val = (q ⟨0, by omega⟩).val)
    (hr0 : ∀ y q, (d.rhsIdx y q 0).val = (q ⟨0, by omega⟩).val)
    (hr1 : ∀ y q, (d.rhsIdx y q 1).val = (y 1).val)
    (lhs : FVec Ideal ⟨2, ![a, K]⟩ φ₁) (rhs : FVec Ideal ⟨2, ![K, b]⟩ φ₂) (i : Fin a) (j : Fin b) :
    FloatOps.matmul d prec lhs rhs (constant ⟨2, ![a, b]⟩ .f32 0x00000000#32) (ix2 i j)
      = ∑ k : Fin K, lhs (ix2 i k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun x => Fin.ext (by
    match x with
    | ⟨0, _⟩ => exact hl0 _ _
    | ⟨1, _⟩ => exact (hl1 _ _).trans hk)
  have er : d.rhsIdx (ix2 i j) ((contrEquiv1 d K hr hs).symm k) = ix2 k j := funext fun x => Fin.ext (by
    match x with
    | ⟨0, _⟩ => exact (hr0 _ _).trans hk
    | ⟨1, _⟩ => exact hr1 _ _)
  rw [el, er]

end Cert.LibMatmulK

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.KPay.lean ====
/-
  The kernel body's stored values, read entry by entry over the extended reals.

  A first-pass point normalises its tile of 1024 rows (each entry divided by its row's Euclidean norm clamped below by
  ε), adds to the class sums the products of the normalised tile's columns with the indicator tile's columns, and adds
  to the class sizes the indicator tile's column sums. A second-pass point forms, for each of its 1024 cached rows and
  each of the 128 lanes, the average distance from the class sums and sizes, the two squared hinge terms, masks the
  lanes from ten on, and adds everything up into one number, which goes into lane 0 of the output row.
-/
import proofs.«174399_j33268816675395_2_alg».proof.Proof.Gen.KernelIdeal.Skeleton
import proofs.«174399_j33268816675395_2_alg».proof.Proof.Spec
import proofs.«174399_j33268816675395_2_alg».proof.Proof.KAccIdeal
import proofs.«174399_j33268816675395_2_alg».proof.Proof.LibMatmulK
import proofs.«174399_j33268816675395_2_alg».proof.Proof.LibRowSum
import proofs.«174399_j33268816675395_2_alg».proof.Proof.LibColumn
import Idealize.ShloMosaic.Lib.ValueLayout
import Idealize.ShloMosaic.Lib.ValueIdx
import Idealize.ShloMosaic.PureOps.Ideal.Laws

noncomputable section

open scoped BigOperators

namespace Cert.KernelIdeal.Hand

open Cert.KernelIdeal Cert.KernelIdeal.Gen Cert.ContrastSpec
open Idealize.ShloMosaic Idealize.ShloMosaic.ValueIdx

/-! ## The zeros the accumulators start from -/

/-- The class-sum accumulator starts at zero. -/
theorem pay1 (i : S512x128.Idx) : k0_pay1 (F := Ideal) i = 0 := by
  unfold k0_pay1
  rw [shapeCast_self]
  exact Ideal.ofBits_zero_f32

/-- The class-size accumulator starts at zero. -/
theorem pay2 (i : S1x128.Idx) : k0_pay2 (F := Ideal) i = 0 := by
  unfold k0_pay2
  rw [shapeCast_self]
  exact Ideal.ofBits_zero_f32

/-- The output row starts at zero. -/
theorem pay3 (i : S1x128.Idx) : k0_pay3 (F := Ideal) i = 0 := by
  unfold k0_pay3
  exact Ideal.ofBits_zero_f32

/-! ## The normalised tile -/

/-- The lane sum of a 1024×512 tile at row `j`. -/
theorem rowsum512 (y : FVec Ideal S1024x512 .f32) (j : Fin 1024) :
    multiReduction .add [1] S1024 y 0x00000000#32 reduces_S1024x512_S1024 (.inl rfl) rfl (ix1 j) = ∑ k : Fin 512, y (ix2 j k) :=
  Cert.LibRowSum.multiReduction_add_row y _ reduces_S1024x512_S1024 _ _ j

/-- A normalised entry: the entry divided by its row's norm clamped below by ε. -/
theorem pay4 (x : Vec Ideal S1024x512 .f32) (j : Fin 1024) (k : Fin 512) :
    k0_pay4 x (ix2 j k)
      = Ideal.div (x (ix2 j k)) (max (Ideal.sqrt (∑ k' : Fin 512, x (ix2 j k') * x (ix2 j k'))) eps) := by
  unfold k0_pay4
  dsimp only
  show Ideal.div (x (ix2 j k)) (broadcastTo S1024x512 _ broadcasts_S1024x1_S1024x512 (ix2 j k)) = _
  rw [broadcastTo_a1_ab_apply]
  show Ideal.div (x (ix2 j k)) (max (Ideal.sqrt (shapeCast S1024x1 _ shapeCasts_S1024_S1024x1 (ix2 j (0 : Fin 1)))) (Ideal.ofBits .f32 0x322BCC77#32)) = _
  rw [shapeCast_a_a1_apply, rowsum512]
  rfl

/-- The stored normalised tile is the normalised tile. -/
theorem pay5_eq (x : Vec Ideal S1024x512 .f32) : k0_pay5 x = k0_pay4 x := by
  unfold k0_pay5
  exact shapeCast_self _ _

/-- A normalised entry, as stored. -/
theorem pay5 (x : Vec Ideal S1024x512 .f32) (j : Fin 1024) (k : Fin 512) :
    k0_pay5 x (ix2 j k)
      = Ideal.div (x (ix2 j k)) (max (Ideal.sqrt (∑ k' : Fin 512, x (ix2 j k') * x (ix2 j k'))) eps) := by
  rw [pay5_eq, pay4]

/-- The indicator tile passes through its cast unchanged. -/
theorem pay6_eq (o : Vec Ideal S1024x128 .bf16) : k0_pay6 o = o := by
  unfold k0_pay6
  exact shapeCast_self _ _

/-! ## The class sums: the normalised tile's columns against the indicator tile's columns -/

theorem dotT_l0 (y : S512x128.Idx) (q : dot_S1024x512_S1024x128_S512x128_0_0_1_1_n_n.contr.Idx) :
    (dot_S1024x512_S1024x128_S512x128_0_0_1_1_n_n.lhsIdx y q 0).val = (q ⟨0, by decide⟩).val :=
  dot_S1024x512_S1024x128_S512x128_0_0_1_1_n_n.lhsIdx_val_of_single rfl y q
theorem dotT_l1 (y : S512x128.Idx) (q : dot_S1024x512_S1024x128_S512x128_0_0_1_1_n_n.contr.Idx) :
    (dot_S1024x512_S1024x128_S512x128_0_0_1_1_n_n.lhsIdx y q 1).val = (y 0).val := by
  unfold DotDims.lhsIdx
  rw [dif_neg (show ¬(1 : Fin S1024x512.rank) ∈ dot_S1024x512_S1024x128_S512x128_0_0_1_1_n_n.lhsBatch by decide),
    dif_pos (show (1 : Fin S1024x512.rank) ∈ dot_S1024x512_S1024x128_S512x128_0_0_1_1_n_n.lhsNonContracting by decide)]
  rfl
theorem dotT_r0 (y : S512x128.Idx) (q : dot_S1024x512_S1024x128_S512x128_0_0_1_1_n_n.contr.Idx) :
    (dot_S1024x512_S1024x128_S512x128_0_0_1_1_n_n.rhsIdx y q 0).val = (q ⟨0, by decide⟩).val :=
  dot_S1024x512_S1024x128_S512x128_0_0_1_1_n_n.rhsIdx_val_of_single rfl y q
theorem dotT_r1 (y : S512x128.Idx) (q : dot_S1024x512_S1024x128_S512x128_0_0_1_1_n_n.contr.Idx) :
    (dot_S1024x512_S1024x128_S512x128_0_0_1_1_n_n.rhsIdx y q 1).val = (y 1).val := by
  unfold DotDims.rhsIdx
  rw [dif_neg (show ¬(1 : Fin S1024x128.rank) ∈ dot_S1024x512_S1024x128_S512x128_0_0_1_1_n_n.rhsBatch by decide),
    dif_pos (show (1 : Fin S1024x128.rank) ∈ dot_S1024x512_S1024x128_S512x128_0_0_1_1_n_n.rhsNonContracting by decide)]
  rfl

/-- The product of the transposed 1024×512 tile with a 1024×128 tile, into zeros, at entry (k, c): the sum over the
    tile's rows of the products of the two tiles' entries in columns k and c. -/
theorem matT (a : FVec Ideal S1024x512 .bf16) (b : FVec Ideal S1024x128 .bf16) (k : Fin 512) (c : Fin 128) :
    matmul dot_S1024x512_S1024x128_S512x128_0_0_1_1_n_n none a b (constant (F := Ideal) S512x128 .f32 0x00000000#32) (ix2 k c)
      = ∑ j : Fin 1024, a (ix2 j k) * b (ix2 j c) :=
  Cert.LibMatmulK.matmul_KA_KB_zero dot_S1024x512_S1024x128_S512x128_0_0_1_1_n_n none rfl rfl dotT_l0 dotT_l1 dotT_r0 dotT_r1 a b k c

/-- The class sums after a first-pass point: what they were plus, at feature `k` and lane `c`, the sum over the tile's
    rows of the normalised entry times the indicator. -/
theorem pay7 (x : Vec Ideal S1024x512 .f32) (o : Vec Ideal S1024x128 .bf16) (g : Vec Ideal S512x128 .f32)
    (k : Fin 512) (c : Fin 128) :
    k0_pay7 x o g (ix2 k c) = g (ix2 k c) + ∑ j : Fin 1024, k0_pay5 x (ix2 j k) * o (ix2 j c) := by
  unfold k0_pay7
  rw [shapeCast_self, pay6_eq, pay5_eq]
  show g (ix2 k c) + matmul dot_S1024x512_S1024x128_S512x128_0_0_1_1_n_n none (k0_pay4 x) o (constant (F := Ideal) S512x128 .f32 0x00000000#32) (ix2 k c) = _
  rw [matT]

/-! ## The class sizes: the indicator tile's column sums -/

/-- Over lane `c` of a 1024×128 tile, the source index with coordinate `j` on the row axis is (j, c). -/
theorem lift_col128 (j : Fin 1024) (c : Fin 128) : reduces_S1024x128_S128.lift (ix1 c) j = ix2 j c := by
  funext a
  match a with
  | ⟨0, _⟩ => exact Fin.ext rfl
  | ⟨1, _⟩ => exact Fin.ext rfl

/-- The sum over the rows of a 1024×128 tile at lane `c`. -/
theorem colsum128 (y : FVec Ideal S1024x128 .f32) (c : Fin 128) :
    multiReduction .add [0] S128 y 0x00000000#32 reduces_S1024x128_S128 (.inl rfl) rfl (ix1 c) = ∑ j : Fin 1024, y (ix2 j c) :=
  (Ideal.multiReduction_add_single y 0x00000000#32 reduces_S1024x128_S128 (.inl rfl) rfl (ix1 c)).trans
    (Finset.sum_congr rfl fun j _ => congrArg y (lift_col128 j c))

/-- The class sizes after a first-pass point: what they were plus, at lane `c`, the sum of the tile's indicators. -/
theorem pay8 (o : Vec Ideal S1024x128 .bf16) (s : Vec Ideal S1x128 .f32) (c : Fin 128) :
    k0_pay8 o s (ix2 (0 : Fin 1) c) = s (ix2 (0 : Fin 1) c) + ∑ j : Fin 1024, o (ix2 j c) := by
  unfold k0_pay8
  rw [shapeCast_self, pay6_eq]
  show s (ix2 (0 : Fin 1) c) + shapeCast S1x128 _ shapeCasts_S128_S1x128 (ix2 (0 : Fin 1) c) = _
  rw [shapeCast_a_1a_apply, colsum128]
  rfl

/-! ## The output row: a tile's loss goes into lane 0 -/

/-- The tile's loss is added to lane 0 of the output row: lane 0's number equals the zero it is compared with. -/
theorem pay9 (v : FVec Ideal S1x1 .f32) (p : Vec Ideal S1x128 .f32) :
    k0_pay9 v laneIota k0_pay11 p (ix2 (0 : Fin 1) (0 : Fin 128))
      = p (ix2 (0 : Fin 1) (0 : Fin 128)) + v (ix2 (0 : Fin 1) (0 : Fin 1)) := by
  unfold k0_pay9
  rw [shapeCast_self, shapeCast_self]
  show p (ix2 (0 : Fin 1) (0 : Fin 128)) + broadcastTo S1x128 v broadcasts_S1x1_S1x128 (ix2 (0 : Fin 1) (0 : Fin 128))
      * FloatOps.sitofp (F := Ideal) .f32 ((IntOp.cmpi .eq (laneIota (ix2 (0 : Fin 1) (0 : Fin 128)))
          (k0_pay11 (ix2 (0 : Fin 1) (0 : Fin 128)))).setWidth 32) = _
  rw [broadcastTo_a1_ab_apply]
  have hb : (IntOp.cmpi .eq (laneIota (ix2 (0 : Fin 1) (0 : Fin 128))) (k0_pay11 (ix2 (0 : Fin 1) (0 : Fin 128)))).setWidth 32
      = 1#32 := by decide
  rw [hb]
  show p _ + v _ * (((1#32 : BitVec 32).toInt : ℝ) : EReal) = _
  have h1 : (1#32 : BitVec 32).toInt = 1 := by decide
  rw [h1]
  norm_num

/-! ## A second-pass tile's loss -/

theorem dotP_l0 (y : S1024x128.Idx) (q : dot_S1024x512_S512x128_S1024x128_1_0_0_1_n_n.contr.Idx) :
    (dot_S1024x512_S512x128_S1024x128_1_0_0_1_n_n.lhsIdx y q 0).val = (y 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
theorem dotP_l1 (y : S1024x128.Idx) (q : dot_S1024x512_S512x128_S1024x128_1_0_0_1_n_n.contr.Idx) :
    (dot_S1024x512_S512x128_S1024x128_1_0_0_1_n_n.lhsIdx y q 1).val = (q ⟨0, by decide⟩).val :=
  dot_S1024x512_S512x128_S1024x128_1_0_0_1_n_n.lhsIdx_val_of_single rfl y q
theorem dotP_r0 (y : S1024x128.Idx) (q : dot_S1024x512_S512x128_S1024x128_1_0_0_1_n_n.contr.Idx) :
    (dot_S1024x512_S512x128_S1024x128_1_0_0_1_n_n.rhsIdx y q 0).val = (q ⟨0, by decide⟩).val :=
  dot_S1024x512_S512x128_S1024x128_1_0_0_1_n_n.rhsIdx_val_of_single rfl y q
theorem dotP_r1 (y : S1024x128.Idx) (q : dot_S1024x512_S512x128_S1024x128_1_0_0_1_n_n.contr.Idx) :
    (dot_S1024x512_S512x128_S1024x128_1_0_0_1_n_n.rhsIdx y q 1).val = (y 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The product of a 1024×512 tile with the 512×128 class sums, into zeros, at entry (j, c). -/
theorem matP (a : FVec Ideal S1024x512 .bf16) (b : FVec Ideal S512x128 .bf16) (j : Fin 1024) (c : Fin 128) :
    matmul dot_S1024x512_S512x128_S1024x128_1_0_0_1_n_n none a b (constant (F := Ideal) S1024x128 .f32 0x00000000#32) (ix2 j c)
      = ∑ k : Fin 512, a (ix2 j k) * b (ix2 k c) :=
  Cert.LibMatmulK.matmul_AK_KB_zero dot_S1024x512_S512x128_S1024x128_1_0_0_1_n_n none rfl rfl dotP_l0 dotP_l1 dotP_r0 dotP_r1 a b j c

/-- A lane number below 128 read as a signed word is itself. -/
theorem lane_toInt (c : Fin 128) : (BitVec.ofNat 32 c.val).toInt = (c.val : ℤ) := by
  have hc := c.isLt
  have h1 : (BitVec.ofNat 32 c.val).toNat = c.val := by
    rw [BitVec.toNat_ofNat]; exact Nat.mod_eq_of_lt (by omega)
  rw [BitVec.toInt_eq_toNat_of_lt (by rw [h1]; omega), h1]

/-- The lane mask: one on the first ten lanes, zero on the others. -/
theorem mask_eq (c : Fin 128) :
    FloatOps.sitofp (F := Ideal) .f32 ((IntOp.cmpi .slt (BitVec.ofNat 32 c.val) 10#32).setWidth 32)
      = if c.val < 10 then (1 : EReal) else 0 := by
  have h10 : (10#32 : BitVec 32).toInt = 10 := by decide
  by_cases h : c.val < 10
  · have e : IntOp.cmpi .slt (BitVec.ofNat 32 c.val) 10#32 = 1#1 :=
      IntOp.cmpi_slt.mpr (by rw [lane_toInt, h10]; exact_mod_cast h)
    rw [e, if_pos h]
    show ((((1#1 : BitVec 1).setWidth 32).toInt : ℝ) : EReal) = 1
    have h1 : ((1#1 : BitVec 1).setWidth 32).toInt = 1 := by decide
    rw [h1]; norm_num
  · have e : IntOp.cmpi .slt (BitVec.ofNat 32 c.val) 10#32 = 0#1 :=
      eq_zero_of_ne_one (fun h1 => h (by
        have h2 := IntOp.cmpi_slt.mp h1
        rw [lane_toInt, h10] at h2
        exact_mod_cast h2))
    rw [e, if_neg h]
    show ((((0#1 : BitVec 1).setWidth 32).toInt : ℝ) : EReal) = 0
    have h0 : ((0#1 : BitVec 1).setWidth 32).toInt = 0 := by decide
    rw [h0]; norm_num

/-- The lane sum of a 1024×128 tile at row `j`. -/
theorem rowsum128 (y : FVec Ideal S1024x128 .f32) (j : Fin 1024) :
    multiReduction .add [1] S1024 y 0x00000000#32 reduces_S1024x128_S1024 (.inl rfl) rfl (ix1 j) = ∑ c : Fin 128, y (ix2 j c) :=
  Cert.LibRowSum.multiReduction_add_row y _ reduces_S1024x128_S1024 _ _ j

/-- Over the one entry of the result, the source index of a 1024×1 column with coordinate `j` on the row axis is (j, 0). -/
theorem lift_col1 (j : Fin 1024) : reduces_S1024x1_S1.lift (ix1 (0 : Fin 1)) j = ix2 j (0 : Fin 1) := by
  funext a
  match a with
  | ⟨0, _⟩ => exact Fin.ext rfl
  | ⟨1, _⟩ => exact Fin.ext rfl

/-- The sum over the rows of a 1024×1 column. -/
theorem colsum1 (y : FVec Ideal S1024x1 .f32) :
    multiReduction .add [0] S1 y 0x00000000#32 reduces_S1024x1_S1 (.inl rfl) rfl (ix1 (0 : Fin 1)) = ∑ j : Fin 1024, y (ix2 j (0 : Fin 1)) :=
  (Ideal.multiReduction_add_single y 0x00000000#32 reduces_S1024x1_S1 (.inl rfl) rfl (ix1 (0 : Fin 1))).trans
    (Finset.sum_congr rfl fun j _ => congrArg y (lift_col1 j))

/-- A comparison of integer vectors at an index compares the elements. -/
theorem cmpi_apply {s : Shape} {w : Nat} (p : CmpIPredicate) (a b : IVec s w) (i : s.Idx) :
    cmpi p a b i = IntOp.cmpi p (a i) (b i) := rfl

/-- A second-pass tile's loss: the sum over the tile's rows and the 128 lanes of the two squared hinge terms of the
    row's average distance to the lane's class (from the class sums and sizes) and the row's indicator, the lanes from
    ten on masked out. -/
theorem pay10 (v : Vec Ideal S1024x512 .bf16) (g : Vec Ideal S512x128 .f32) (s : Vec Ideal S1x128 .f32)
    (o : Vec Ideal S1024x128 .bf16) :
    k0_pay10 v g s o (ix2 (0 : Fin 1) (0 : Fin 1))
      = ∑ j : Fin 1024, ∑ c : Fin 128,
          hinge (Ideal.div (s (ix2 (0 : Fin 1) c) - ∑ k : Fin 512, v (ix2 j k) * g (ix2 k c)) (s (ix2 (0 : Fin 1) c) + eps))
            (o (ix2 j c)) * (if c.val < 10 then (1 : EReal) else 0) := by
  unfold k0_pay10
  rw [shapeCast_a_1a_apply, colsum1]
  refine Finset.sum_congr rfl fun j _ => ?_
  rw [shapeCast_a_a1_apply, rowsum128]
  refine Finset.sum_congr rfl fun c _ => ?_
  simp only [mulf_apply, addf_apply, subf_apply, divf_apply, maximumf_apply, broadcast_apply, extf_apply,
    sitofp_apply, extui_apply, cmpi_apply]
  rw [broadcastTo_1b_ab_apply, broadcastTo_1b_ab_apply, shapeCast_self, matP, iota_single_apply]
  show _ * FloatOps.sitofp (F := Ideal) .f32 ((IntOp.cmpi .slt (BitVec.ofNat 32 c.val) 10#32).setWidth 32) = _
  rw [mask_eq]
  rfl

end Cert.KernelIdeal.Hand

end
-- ==== Proof.KFold.lean ====
/-
  The accumulation of the fused kernel, summed up.

  The class sums and class sizes are running sums over the eight first-pass tiles, started from zero; the output's
  lane 0 is a running sum over the eight second-pass tiles of each tile's loss, started from zero. A running sum
  G 0 = z + a 0, G (n+1) = G n + a (n+1) is z + Σ_{t ≤ n} a t, and a sum over eight tiles of 1024 consecutive rows is
  the sum over all 8192 rows (r = 1024 t + j). Only the commutative-monoid laws of + on the extended reals are used,
  and 0 + x = x.
-/
import proofs.«174399_j33268816675395_2_alg».proof.Proof.KAccIdeal
import proofs.«174399_j33268816675395_2_alg».proof.Proof.Spec
import proofs.«174399_j33268816675395_2_alg».proof.Proof.KPay

noncomputable section

open scoped BigOperators

namespace Cert.KernelIdeal.Hand

open Cert.KernelIdeal Cert.KernelIdeal.Gen
open Idealize.ShloMosaic Idealize.ShloMosaic.ValueIdx
open Cert.ContrastSpec

/-! ## Running sums and tiles -/

/-- A running sum whose first step already adds a term: G 0 = z + a 0 and G (n+1) = G n + a (n+1) below N. -/
theorem run_sum {M : Type*} [AddCommMonoid M] (G a : ℕ → M) (z : M) (N : ℕ) (h0 : G 0 = z + a 0)
    (hs : ∀ n, n + 1 < N → G (n + 1) = G n + a (n + 1)) (n : ℕ) (hn : n < N) :
    G n = z + ∑ t ∈ Finset.range (n + 1), a t := by
  induction n with
  | zero => simpa using h0
  | succ n ih => rw [hs n hn, ih (by omega), Finset.sum_range_succ _ (n + 1), add_assoc]

/-- A running sum that starts at z: G 0 = z and G (n+1) = G n + a n below N. -/
theorem run_sum' {M : Type*} [AddCommMonoid M] (G a : ℕ → M) (z : M) (N : ℕ) (h0 : G 0 = z)
    (hs : ∀ n, n < N → G (n + 1) = G n + a n) (n : ℕ) (hn : n ≤ N) :
    G n = z + ∑ t ∈ Finset.range n, a t := by
  induction n with
  | zero => simpa using h0
  | succ n ih => rw [hs n hn, ih (by omega), Finset.sum_range_succ, add_assoc]

/-- Eight tiles of 1024 consecutive rows are the 8192 rows: row r = 1024 t + j. -/
theorem sum_tiles {M : Type*} [AddCommMonoid M] (g : Fin 8192 → M) (T : ℕ → M)
    (hT : ∀ t (ht : t < 8), T t = ∑ j : Fin 1024, g ⟨1024 * t + j.val, by omega⟩) :
    ∑ t ∈ Finset.range 8, T t = ∑ r : Fin 8192, g r := by
  rw [← Fin.sum_univ_eq_sum_range T 8]
  have e := (finProdFinEquiv : Fin 8 × Fin 1024 ≃ Fin (8 * 1024)).sum_comp g
  rw [Fintype.sum_prod_type] at e
  rw [← e]
  refine Finset.sum_congr rfl fun t _ => ?_
  rw [hT t.val t.isLt]
  refine Finset.sum_congr rfl fun j _ => congrArg g (Fin.ext ?_)
  simp [finProdFinEquiv]
  omega

/-! ## The accumulators, from the payloads read at an index -/

section Acc

variable (X : Mat) (L : Lab) (XB : ℕ → Vec Ideal S1024x512 .f32) (OB : ℕ → Vec Ideal S1024x128 .bf16)

/-- The class sums stay what they were after point 7. -/
theorem accG_frozen (n : ℕ) (hn : 7 ≤ n) : accG XB OB n = accG XB OB 7 := by
  induction n, hn using Nat.le_induction with
  | base => rfl
  | succ n hn ih => rw [accG_succ_ge XB OB n (by omega), ih]

/-- The class sizes stay what they were after point 7. -/
theorem accC_frozen (n : ℕ) (hn : 7 ≤ n) : accC OB n = accC OB 7 := by
  induction n, hn using Nat.le_induction with
  | base => rfl
  | succ n hn ih => rw [accC_succ_ge OB n (by omega), ih]

/-- The output row is still its initial value after point 7. -/
theorem accO_first (n : ℕ) (hn : n < 8) : accO XB OB n = k0_pay3 (F := Ideal) := by
  induction n with
  | zero => rfl
  | succ n ih => rw [accO_succ_lt XB OB n hn, ih (by omega)]

variable
  (h1 : ∀ (k : Fin 512) (c : Fin 128), k0_pay1 (F := Ideal) (ix2 k c) = 0)
  (h2 : ∀ c : Fin 128, k0_pay2 (F := Ideal) (ix2 (0 : Fin 1) c) = 0)
  (h3 : k0_pay3 (F := Ideal) (ix2 (0 : Fin 1) (0 : Fin 128)) = 0)
  (h5 : ∀ (x : Vec Ideal S1024x512 .f32) (j : Fin 1024) (k : Fin 512), k0_pay5 x (ix2 j k)
      = Ideal.div (x (ix2 j k)) (max (Ideal.sqrt (∑ k' : Fin 512, x (ix2 j k') * x (ix2 j k'))) eps))
  (h7 : ∀ (x : Vec Ideal S1024x512 .f32) (o : Vec Ideal S1024x128 .bf16) (g : Vec Ideal S512x128 .f32) (k : Fin 512)
      (c : Fin 128), k0_pay7 x o g (ix2 k c) = g (ix2 k c) + ∑ j : Fin 1024, k0_pay5 x (ix2 j k) * o (ix2 j c))
  (h8 : ∀ (o : Vec Ideal S1024x128 .bf16) (s : Vec Ideal S1x128 .f32) (c : Fin 128),
      k0_pay8 o s (ix2 (0 : Fin 1) c) = s (ix2 (0 : Fin 1) c) + ∑ j : Fin 1024, o (ix2 j c))
  (h9 : ∀ (v : FVec Ideal S1x1 .f32) (p : Vec Ideal S1x128 .f32),
      k0_pay9 v laneIota k0_pay11 p (ix2 (0 : Fin 1) (0 : Fin 128)) = p (ix2 (0 : Fin 1) (0 : Fin 128)) + v (ix2 (0 : Fin 1) (0 : Fin 1)))
  (h10 : ∀ (v : Vec Ideal S1024x512 .bf16) (g : Vec Ideal S512x128 .f32) (s : Vec Ideal S1x128 .f32)
      (o : Vec Ideal S1024x128 .bf16), k0_pay10 v g s o (ix2 (0 : Fin 1) (0 : Fin 1))
      = ∑ j : Fin 1024, ∑ c : Fin 128,
          hinge (Ideal.div (s (ix2 (0 : Fin 1) c) - ∑ k : Fin 512, v (ix2 j k) * g (ix2 k c)) (s (ix2 (0 : Fin 1) c) + eps))
            (o (ix2 j c)) * (if c.val < 10 then (1 : EReal) else 0))
  (hXB : ∀ n (hn : n < 8) (j : Fin 1024) (k : Fin 512), XB n (ix2 j k) = X (ix2 ⟨1024 * n + j.val, by omega⟩ k))
  (hOB : ∀ n (hn : n < 16) (j : Fin 1024) (c : Fin 128),
      OB n (ix2 j c) = oh L ⟨1024 * (n % 8) + j.val, by omega⟩ c.val)

include h5 hXB in
/-- A tile's normalised rows are the matrix's. -/
theorem pay5_row (t : ℕ) (ht : t < 8) (j : Fin 1024) (k : Fin 512) :
    k0_pay5 (XB t) (ix2 j k) = xn X ⟨1024 * t + j.val, by omega⟩ k := by
  rw [h5]
  simp only [hXB t ht]
  rfl

include hOB in
/-- A first-pass tile's indicators are the rows' indicators. -/
theorem ob_row (t : ℕ) (ht : t < 8) (j : Fin 1024) (c : Fin 128) :
    OB t (ix2 j c) = oh L ⟨1024 * t + j.val, by omega⟩ c.val := by
  rw [hOB t (by omega)]
  exact congrArg (fun r => oh L r c.val) (Fin.ext (by simp [Nat.mod_eq_of_lt ht]))

include hOB in
/-- A second-pass tile's indicators are the same rows' indicators. -/
theorem ob_row' (t : ℕ) (ht : t < 8) (j : Fin 1024) (c : Fin 128) :
    OB (7 + t + 1) (ix2 j c) = oh L ⟨1024 * t + j.val, by omega⟩ c.val := by
  rw [hOB (7 + t + 1) (by omega)]
  exact congrArg (fun r => oh L r c.val) (Fin.ext (by simp; omega))

include h1 h5 h7 hXB hOB in
/-- After the first pass the class-sum accumulator holds the class sums. -/
theorem accG_value (k : Fin 512) (c : Fin 128) : accG XB OB 7 (ix2 k c) = gsum X L k c.val := by
  have e := run_sum (fun n => accG XB OB n (ix2 k c))
    (fun t => ∑ j : Fin 1024, k0_pay5 (XB t) (ix2 j k) * OB t (ix2 j c)) 0 8
    (by show accG XB OB 0 (ix2 k c) = _; rw [accG, h7, h1])
    (fun n hn => by show accG XB OB (n + 1) (ix2 k c) = _; rw [accG_succ_lt XB OB n hn, h7]) 7 (by norm_num)
  rw [show accG XB OB 7 (ix2 k c) = _ from e, zero_add]
  exact sum_tiles (fun r => xn X r k * oh L r c.val) _ fun t ht =>
    Finset.sum_congr rfl fun j _ => by rw [pay5_row X XB h5 hXB t ht, ob_row L OB hOB t ht]

include h2 h8 hOB in
/-- After the first pass the class-size accumulator holds the class sizes. -/
theorem accC_value (c : Fin 128) : accC OB 7 (ix2 (0 : Fin 1) c) = cnt L c.val := by
  have e := run_sum (fun n => accC OB n (ix2 (0 : Fin 1) c)) (fun t => ∑ j : Fin 1024, OB t (ix2 j c)) 0 8
    (by show accC OB 0 (ix2 (0 : Fin 1) c) = _; rw [accC, h8, h2])
    (fun n hn => by show accC OB (n + 1) (ix2 (0 : Fin 1) c) = _; rw [accC_succ_lt OB n hn, h8]) 7 (by norm_num)
  rw [show accC OB 7 (ix2 (0 : Fin 1) c) = _ from e, zero_add]
  exact sum_tiles (fun r => oh L r c.val) _ fun t ht =>
    Finset.sum_congr rfl fun j _ => by rw [ob_row L OB hOB t ht]

include h1 h2 h5 h7 h8 h10 hXB hOB in
/-- The loss of second-pass tile t, read as a sum over the tile's rows of the rows' losses. -/
theorem tile_loss (t : ℕ) (ht : t < 8) :
    k0_pay10 (k0_pay5 (XB t)) (accG XB OB (7 + t)) (accC OB (7 + t)) (OB (7 + t + 1)) (ix2 (0 : Fin 1) (0 : Fin 1))
      = ∑ j : Fin 1024, (fun r : Fin 8192 => ∑ c : Fin 128,
          hinge (kavg X L r c.val) (oh L r c.val) * (if c.val < 10 then (1 : EReal) else 0))
            ⟨1024 * t + j.val, by omega⟩ := by
  rw [h10, accG_frozen XB OB (7 + t) (by omega), accC_frozen OB (7 + t) (by omega)]
  refine Finset.sum_congr rfl fun j _ => Finset.sum_congr rfl fun c _ => ?_
  simp only [accG_value X L XB OB h1 h5 h7 hXB hOB, accC_value L OB h2 h8 hOB, pay5_row X XB h5 hXB t ht,
    ob_row' L OB hOB t ht]
  rfl

include h1 h2 h3 h5 h7 h8 h9 h10 hXB hOB in
/-- After the last point lane 0 of the output row holds the sum over all rows of the rows' losses. -/
theorem accO_value : accO XB OB 15 (ix2 (0 : Fin 1) (0 : Fin 128))
    = ∑ r : Fin 8192, ∑ c : Fin 128, hinge (kavg X L r c.val) (oh L r c.val) * (if c.val < 10 then (1 : EReal) else 0) := by
  have e := run_sum' (fun m => accO XB OB (7 + m) (ix2 (0 : Fin 1) (0 : Fin 128)))
    (fun t => k0_pay10 (k0_pay5 (XB t)) (accG XB OB (7 + t)) (accC OB (7 + t)) (OB (7 + t + 1))
      (ix2 (0 : Fin 1) (0 : Fin 1))) 0 8
    (by show accO XB OB 7 (ix2 (0 : Fin 1) (0 : Fin 128)) = 0; rw [accO_first XB OB 7 (by norm_num), h3])
    (fun m hm => by
      show accO XB OB (7 + m + 1) (ix2 (0 : Fin 1) (0 : Fin 128)) = _
      rw [accO_succ_ge XB OB (7 + m) (by omega), h9, show 7 + m + 1 - 8 = m by omega])
    8 le_rfl
  rw [show accO XB OB 15 (ix2 (0 : Fin 1) (0 : Fin 128)) = _ from e, zero_add]
  exact sum_tiles _ _ fun t ht => tile_loss X L XB OB h1 h2 h5 h7 h8 h10 hXB hOB t ht

include h1 h2 h3 h5 h7 h8 h9 h10 hXB hOB in
/-- Lane 0 of the final output row over the row count is the blocked arrangement's loss. -/
theorem acc_value_of : Ideal.div (accO XB OB 15 (ix2 (0 : Fin 1) (0 : Fin 128))) count = kernelLoss X L := by
  rw [accO_value X L XB OB h1 h2 h3 h5 h7 h8 h9 h10 hXB hOB]
  rfl

end Acc

/-- Lane 0 of the final output row over the row count is the blocked arrangement's loss: the fold above with the
    payloads' values at an index. -/
theorem acc_value (X : Mat) (L : Lab) (XB : ℕ → Vec Ideal S1024x512 .f32) (OB : ℕ → Vec Ideal S1024x128 .bf16)
    (hXB : ∀ n (hn : n < 8) (j : Fin 1024) (k : Fin 512), XB n (ix2 j k) = X (ix2 ⟨1024 * n + j.val, by omega⟩ k))
    (hOB : ∀ n (hn : n < 16) (j : Fin 1024) (c : Fin 128),
      OB n (ix2 j c) = oh L ⟨1024 * (n % 8) + j.val, by omega⟩ c.val) :
    Ideal.div (accO (F := Ideal) XB OB 15 (ix2 (0 : Fin 1) (0 : Fin 128))) count = kernelLoss X L :=
  acc_value_of X L XB OB (fun k c => pay1 (ix2 k c)) (fun c => pay2 (ix2 (0 : Fin 1) c))
    (pay3 (ix2 (0 : Fin 1) (0 : Fin 128))) pay5 pay7 pay8 pay9 pay10 hXB hOB

end Cert.KernelIdeal.Hand

end
-- ==== Proof.OneHot.lean ====
/-
  The label indicator the kernel's region finds in its second operand.

  Before the region the host compares each row's label word, broadcast along 128 lanes, with the lane number's word and
  converts the one-bit result to a float: the entry at row `r`, lane `k` is one when row `r` carries label `k` and
  zero otherwise.
-/
import proofs.«174399_j33268816675395_2_alg».proof.Proof.Gen.KernelIdeal.Frame
import proofs.«174399_j33268816675395_2_alg».proof.Proof.Spec
import Idealize.ShloMosaic.Lib.Pipeline.Value
import Idealize.ShloMosaic.Lib.ValueIdx

noncomputable section

namespace Cert.KernelIdeal.OneHot

open Cert.KernelIdeal Cert.KernelIdeal.Gen Cert.ContrastSpec
open Idealize.ShloMosaic Idealize.ShloMosaic.TcCoe Idealize.SL.Sem Idealize.ShloMosaic.StableHlo Idealize.ShloMosaic.ValueIdx

/-- A one-bit comparison word converted to a float is one when the operands are equal and zero otherwise. -/
theorem uitofp_cmpi_eq (a b : BitVec 32) :
    FloatOps.uitofp (F := Ideal) .bf16 (IntOp.cmpi .eq a b) = if a = b then (1 : EReal) else 0 := by
  by_cases h : a = b
  · rw [if_pos h, IntOp.cmpi_eq.mpr h]
    show (((1#1 : BitVec 1).toNat : ℝ) : EReal) = 1
    norm_num
  · rw [if_neg h, eq_zero_of_ne_one (fun h1 => h (IntOp.cmpi_eq.mp h1))]
    show (((0#1 : BitVec 1).toNat : ℝ) : EReal) = 0
    norm_num

/-- The host's indicator array as a function of the label vector. -/
def ohTerm (l : IVec S8192 32) : FVec Ideal S8192x128 .bf16 :=
  uitofp .bf16 (cmpi .eq (broadcastInDim S8192x128 ![0, 1] bcast_S8192x1_S8192x128_0_1 (broadcastInDim S8192x1 ![0] bcast_S8192_S8192x1_0 l))
    (broadcastInDim S8192x128 ![0, 1] bcast_S1x128_S8192x128_0_1 (iotaInDim S1x128 32 1)))

/-- Its entry at row `r`, lane `k`: the comparison of the row's label word with the lane number's word. -/
theorem ohTerm_apply (l : IVec S8192 32) (r : Fin 8192) (k : Fin 128) :
    ohTerm l (ix2 r k) = oh l r k.val := by
  have b0 : broadcastInDim S8192x1 ![0] bcast_S8192_S8192x1_0 l (ix2 r (0 : Fin 1)) = l (ix1 r) :=
    broadcastInDim_apply _ bcast_S8192_S8192x1_0 l (ix2 r (0 : Fin 1)) (ix1 r) (fun a => match a with
      | ⟨0, _⟩ => by show r.val = if (8192 : Nat) = 1 then 0 else r.val; rw [if_neg (by decide)])
  have b1 : broadcastInDim S8192x128 ![0, 1] bcast_S8192x1_S8192x128_0_1 (broadcastInDim S8192x1 ![0] bcast_S8192_S8192x1_0 l) (ix2 r k)
      = broadcastInDim S8192x1 ![0] bcast_S8192_S8192x1_0 l (ix2 r (0 : Fin 1)) := by
    generalize broadcastInDim S8192x1 ![0] bcast_S8192_S8192x1_0 l = y
    exact broadcastInDim_apply _ bcast_S8192x1_S8192x128_0_1 y (ix2 r k) (ix2 r (0 : Fin 1)) (fun a => match a with
      | ⟨0, _⟩ => by show r.val = if (8192 : Nat) = 1 then 0 else r.val; rw [if_neg (by decide)]
      | ⟨1, _⟩ => by show 0 = if (1 : Nat) = 1 then 0 else k.val; rw [if_pos rfl])
  have b2 : broadcastInDim S8192x128 ![0, 1] bcast_S1x128_S8192x128_0_1 (iotaInDim S1x128 32 1) (ix2 r k)
      = BitVec.ofNat 32 k.val := by
    refine (broadcastInDim_apply _ bcast_S1x128_S8192x128_0_1 (iotaInDim S1x128 32 1) (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)])).trans ?_
    rfl
  show FloatOps.uitofp (F := Ideal) .bf16 (IntOp.cmpi .eq
      (broadcastInDim S8192x128 ![0, 1] bcast_S8192x1_S8192x128_0_1 (broadcastInDim S8192x1 ![0] bcast_S8192_S8192x1_0 l) (ix2 r k))
      (broadcastInDim S8192x128 ![0, 1] bcast_S1x128_S8192x128_0_1 (iotaInDim S1x128 32 1) (ix2 r k))) = _
  rw [b1, b0, b2, uitofp_cmpi_eq]
  rfl

/-- The region finds the host's indicator array of the launched label vector in its second operand. -/
theorem V_term (m : (ℓ : Loc nD τ sig) → Buf (Elt Ideal) ℓ) (c : Dev nD) :
    (Gen.V (F := Ideal) m c main_v0 : S8192x128.Idx → EReal) = ohTerm (m ((c : Thread nD τ).loc main_arg1)) := by
  show StableHlo.after hostOps0 (fun b => m (c, b)) (Proc.devRef .tc main_v0) = _
  after_results
  rfl

/-- The region's second operand at row `r`, lane `k` is the indicator that row `r` carries label `k`. -/
theorem V_onehot (m : (ℓ : Loc nD τ sig) → Buf (Elt Ideal) ℓ) (c : Dev nD) (r : Fin 8192) (k : Fin 128) :
    (Gen.V (F := Ideal) m c main_v0 : S8192x128.Idx → EReal) (ix2 r k) = oh (m ((c : Thread nD τ).loc main_arg1)) r k.val := by
  rw [V_term, ohTerm_apply]

end Cert.KernelIdeal.OneHot

end
-- ==== Proof.KBlocks.lean ====
/-
  The tiles the grid points are handed, entry by entry.

  The feature window walks the eight 1024-row tiles of the feature matrix during the first pass; the indicator window
  walks the eight tiles of the host's indicator array in both passes. An entry of a tile sits in its array at the tile
  number times 1024 plus its own row, in its own column.
-/
import proofs.«174399_j33268816675395_2_alg».proof.Proof.KFrameIdeal
import proofs.«174399_j33268816675395_2_alg».proof.Proof.OneHot

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The windows' tile numbers over the grid -/

/-- The feature window is at tile `t` during the first pass. -/
theorem idx0 : ∀ t : Fin cfg0.N, t.val < 8 → win0_0.index t = ![t.val, 0] :=
  (by decide +kernel : ∀ t : Fin grid0.N, t.val < 8 → win0_0.index t = ![t.val, 0])
/-- The indicator window is at tile `t mod 8` at every point. -/
theorem idx1 : ∀ t : Fin cfg0.N, win0_1.index t = ![t.val % 8, 0] :=
  (by decide +kernel : ∀ t : Fin grid0.N, win0_1.index t = ![t.val % 8, 0])

/-! ## A tile read off any array -/

/-- Entry (j, k) of the feature window's tile at a first-pass point `t`, read off any 8192×512 array, is the array's
    entry at row 1024·t + j, column k. -/
theorem xread (A : S8192x512.Idx → EReal) (t : Fin cfg0.N) (ht : t.val < 8) (j : Fin 1024) (k : Fin 512) :
    ((cfg0.win 0).blk t).view.read (Elt Ideal) A (ix2 j k)
      = A (ix2 (⟨1024 * t.val + j.val, by omega⟩ : Fin 8192) k) := by
  show A (((cfg0.win 0).blk t).view.emb (ix2 j k)) = _
  refine congrArg A (funext fun a => Fin.ext ?_)
  have e := idx0 t ht
  match a with
  | ⟨0, _⟩ =>
    show win0_0.index t (0 : Fin 2) * 1024 + 1 * j.val = 1024 * t.val + j.val
    rw [e]; show t.val * 1024 + 1 * j.val = _; omega
  | ⟨1, _⟩ =>
    show win0_0.index t (1 : Fin 2) * 512 + 1 * k.val = k.val
    rw [e]; show 0 * 512 + 1 * k.val = _; omega

/-- Entry (j, k) of the indicator window's tile at point `t`, read off any 8192×128 array, is the array's entry at row
    1024·(t mod 8) + j, lane k. -/
theorem oread (A : S8192x128.Idx → EReal) (t : Fin cfg0.N) (j : Fin 1024) (k : Fin 128) :
    ((cfg0.win 1).blk t).view.read (Elt Ideal) A (ix2 j k)
      = A (ix2 (⟨1024 * (t.val % 8) + j.val, by omega⟩ : Fin 8192) k) := by
  show A (((cfg0.win 1).blk t).view.emb (ix2 j k)) = _
  refine congrArg A (funext fun a => Fin.ext ?_)
  have e := idx1 t
  match a with
  | ⟨0, _⟩ =>
    show win0_1.index t (0 : Fin 2) * 1024 + 1 * j.val = 1024 * (t.val % 8) + j.val
    rw [e]; show (t.val % 8) * 1024 + 1 * j.val = _; omega
  | ⟨1, _⟩ =>
    show win0_1.index t (1 : Fin 2) * 128 + 1 * k.val = k.val
    rw [e]; show 0 * 128 + 1 * k.val = _; omega

/-! ## The tiles the points are handed -/

variable (m : (ℓ : Loc nD τ sig) → Buf (Elt Ideal) ℓ)

/-- Feature tile `n` of the first pass is rows 1024·n … of the feature matrix as launched. -/
theorem xblk_apply (c : Dev nD) (n : ℕ) (hn : n < 8) (j : Fin 1024) (k : Fin 512) :
    xblk m c n (ix2 j k) = m ((c : Thread nD τ).loc main_arg0) (ix2 ⟨1024 * n + j.val, by omega⟩ k) := by
  have hN : n < cfg0.N := by rw [show cfg0.N = 16 from N_0]; omega
  rw [xblk, dif_pos hN]
  unfold iblk
  refine (xread (V m c (Pipeline.arrRef spec0 0)) ⟨n, hN⟩ hn j k).trans ?_
  exact congrFun (V_main_arg0 m c) _

/-- Indicator tile `n` is rows 1024·(n mod 8) … of the host's indicator array: entry by entry the indicator that the
    row carries the lane's label. -/
theorem oblk_apply (c : Dev nD) (n : ℕ) (hn : n < 16) (j : Fin 1024) (k : Fin 128) :
    oblk m c n (ix2 j k)
      = Cert.ContrastSpec.oh (m ((c : Thread nD τ).loc main_arg1)) ⟨1024 * (n % 8) + j.val, by omega⟩ k.val := by
  have hN : n < cfg0.N := by rw [show cfg0.N = 16 from N_0]; omega
  rw [oblk, dif_pos hN]
  unfold iblk
  refine (oread (V m c (Pipeline.arrRef spec0 1)) ⟨n, hN⟩ j k).trans ?_
  exact Cert.KernelIdeal.OneHot.V_onehot m c ⟨1024 * (n % 8) + j.val, by omega⟩ k

end Cert.KernelIdeal.KValue

end
-- ==== Proof.KValue.lean ====
/-
  The idealized kernel's result as a function of its argument arrays.

  The output row is written back to its array once, after the last grid point, whole; the host lines after the region cut
  lane 0 out of it and divide by the number of rows. The tiles the points are handed are blocks of the argument arrays:
  feature tile n is rows 1024·n … of the feature matrix (first pass), indicator tile n is rows 1024·(n mod 8) … of the
  indicator matrix, whose entries the host lines before the region compute from the labels. So the result is the blocked
  arrangement of the loss.
-/
import proofs.«174399_j33268816675395_2_alg».proof.Proof.KFrameIdeal
import proofs.«174399_j33268816675395_2_alg».proof.Proof.KFold
import proofs.«174399_j33268816675395_2_alg».proof.Proof.KBlocks
import proofs.«174399_j33268816675395_2_alg».proof.Proof.Spec
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The output array after the run -/

/-- The output window's block is the whole row at every point. -/
theorem idx2 : ∀ t : Fin cfg0.N, win0_2.index t = ![0, 0] :=
  (by decide +kernel : ∀ t : Fin grid0.N, win0_2.index t = ![0, 0])

/-- Reading any row through the output window's block gives the row. -/
theorem blk2_read (t : Fin cfg0.N) (G : S1x128.Idx → EReal) :
    ((cfg0.win 2).blk t).view.read (Elt Ideal) G = G := by
  funext j
  rw [View.read_apply]
  have e := idx2 t
  refine congrArg G (funext fun a => Fin.ext ?_)
  match a with
  | ⟨0, _⟩ => show win0_2.index t (0 : Fin 2) * 1 + 1 * (j 0).val = (j 0).val; rw [e]; show 0 * 1 + 1 * (j 0).val = _; omega
  | ⟨1, _⟩ => show win0_2.index t (1 : Fin 2) * 128 + 1 * (j 1).val = (j 1).val; rw [e]; show 0 * 128 + 1 * (j 1).val = _; omega

/-- Every index of the output array lies in the block of any point. -/
theorem mem_blk2 (t : Fin cfg0.N) (i : S1x128.Idx) : i ∈ ((cfg0.win 2).blk t).view.set := by
  show i ∈ ((View.whole main_v1).slice (win0_2.rect t)).set
  rw [View.set_slice_whole, Rect.mem_set_unit]
  intro a
  have e := idx2 t
  match a with
  | ⟨0, _⟩ => show win0_2.index t (0 : Fin 2) * 1 ≤ (i 0).val ∧ (i 0).val < win0_2.index t (0 : Fin 2) * 1 + 1; rw [e]; have := ValueIdx.idx2_lt0 i; show 0 * 1 ≤ (i 0).val ∧ (i 0).val < 0 * 1 + 1; omega
  | ⟨1, _⟩ => show win0_2.index t (1 : Fin 2) * 128 ≤ (i 1).val ∧ (i 1).val < win0_2.index t (1 : Fin 2) * 128 + 128; rw [e]; have := ValueIdx.idx2_lt1 i; show 0 * 128 ≤ (i 1).val ∧ (i 1).val < 0 * 128 + 128; omega

/-- The output array ends holding the row `G` that the proof data's output row is after the last point: the one
    write-back, after the last point, writes the whole row. -/
theorem final2_of (c : Dev nD) (G : S1x128.Idx → EReal)
    (hG : ∀ t : Fin cfg0.N, t.val = 15 → (dats m 0 c).after 2 t = G) :
    (dats m 0 c).arrAt 2 cfg0.N = G := by
  have hN : cfg0.N = 16 := N_0
  refine (dats m 0 c).arrAt_eq_of_cover 2 G (fun t hf => ?_) (fun i => ?_)
  · have h15 : t.val = 15 := by have := (flush0_2 t).mp hf; have := t.isLt; omega
    show (cfg0.win 2).cut (grid0.coords t) ((dats m 0 c).after 2 t) = _
    rw [hG t h15, blk2_read]
    rfl
  · obtain ⟨t, ht⟩ : ∃ t : Fin cfg0.N, t.val = 15 := ⟨⟨15, by omega⟩, rfl⟩
    exact ⟨t, (flush0_2 t).mpr (by rw [ht]), mem_blk2 t i⟩

theorem final2 (c : Dev nD) : (dats m 0 c).arrAt 2 cfg0.N = accO (xblk m c) (oblk m c) 15 :=
  final2_of m c _ (fun t ht => by rw [after0_2, ht])

/-! ## The host lines after the region -/

/-- The result buffer after the host lines, given the output array: lane 0 of it, divided by the number of rows. -/
theorem tail_value (c : Dev nD)
    (hfin : (dats m 0 c).arrAt 2 cfg0.N = accO (xblk m c) (oblk m c) 15) :
    Pipeline.afterTail₀ cfgs (dats m) 0 (V0 m) [hostOps1] c main_v4
      = fun _ => Ideal.div (accO (xblk m c) (oblk m c) 15 (ix2 (0 : Fin 1) (0 : Fin 128))) Cert.ContrastSpec.count := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v1)
      = accO (xblk m c) (oblk m c) 15 :=
    (Pipeline.withArrays_arr spec0 launch0.win.arr_inj c (V0 m c) _ 2).trans hfin
  rw [hw]
  funext x
  show Ideal.div (shapeCast S_ (extractStridedSlice S1x1 ![0, 0] (accO (xblk m c) (oblk m c) 15) slices_S1x128_S1x1_0_0) shapeCasts_S1x1_S_ x)
      (Ideal.ofBits .f32 0x46000000#32) = _
  rw [shapeCast_apply _ shapeCasts_S1x1_S_ x (ix2 (0 : Fin 1) (0 : Fin 1)) rfl,
    extractStridedSlice_apply ![0, 0] _ slices_S1x128_S1x1_0_0 (ix2 (0 : Fin 1) (0 : Fin 1)) (ix2 (0 : Fin 1) (0 : Fin 128))
      (fun a => by match a with | ⟨0, _⟩ => rfl | ⟨1, _⟩ => rfl)]
  rfl

/-! ## The run, read -/

/-- The idealized kernel runs; its result is the blocked arrangement of the loss of its argument arrays, which end
    unchanged. -/
theorem run : θ_run defs (onTc (τ := τ) (main (F := Ideal))) ⟨m, fun _ => 0, ρ⟩ (fun r => ∀ c : Dev nD,
      r.2.mem ((c.tc : Thread nD τ).loc main_v4)
        = (fun _ => Cert.ContrastSpec.kernelLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
      ((h c).2 main_v4 (Pipeline.mem_restRefs_of main_v4 (by decide) (by decide))).trans
        ((tail_value m c (final2 m c)).trans (funext fun _ =>
          acc_value (m ((c.tc : Thread nD τ).loc main_arg0)) (m ((c.tc : Thread nD τ).loc main_arg1)) (xblk m c) (oblk m c)
            (fun n hn j k => xblk_apply m c n hn j k) (fun n hn j k => oblk_apply m c n hn j k))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main (F := Ideal) m ρ)

end Cert.KernelIdeal.KValue

end
-- ==== Proof.RefSide.lean ====
/-
  The reference program's result, read index by index, is the pairwise arrangement of the contrastive loss.

  Every stage of the reference is read at a symbolic index: a row's clamped Euclidean norm, the normalised entry, the
  cosine distance of two rows as one minus the sum over the features of the products of their normalised entries, the
  label indicator as the comparison of a row's label word with the class number's word, a class's size as the sum of
  its indicators over the rows, a row's average distance to a class, and the two squared hinge terms. The sums over the
  ten classes and the 8192 rows and the final division by the row count then give the loss.
-/
import proofs.«174399_j33268816675395_2_alg».proof.Proof.Gen.ReferenceIdeal.Read
import proofs.«174399_j33268816675395_2_alg».proof.Proof.Spec

noncomputable section

open scoped BigOperators

namespace Cert.ReferenceIdeal.RefValue

open Cert.ReferenceIdeal Cert.ReferenceIdeal.Gen Cert.ReferenceIdeal.Read Cert.ContrastSpec
open Idealize.ShloMosaic Idealize.ShloMosaic.TcCoe Idealize.SL.Sem Idealize.ShloMosaic.StableHlo Idealize.ShloMosaic.ValueIdx

/-! ## The rows' norms and the normalised entries -/

/-- Row `r`'s norm, clamped below by ε: the square root of the sum of the row's squares, or ε when that is smaller. -/
theorem nrm_eq (x : FVec Ideal S8192x512 .f32) (r : Fin 8192) :
    val_main_v2 (F := Ideal) x (ix2 r (0 : Fin 1)) = nrm x r := by
  have e1 : ∀ k : Fin 512, idx_main_call0_v1 (idx_main_call0_v2 (ix2 r (0 : Fin 1))) k = ix2 r k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [e1, val_main_call0_v0_apply, Ideal.ofBits_def, Ideal.ofBits_zero_f32, zero_add, Ideal.mulf_def,
    Ideal.maximumf_def, Ideal.hostUnary_sqrt_def]
  rfl

/-- The normalised entry: the entry divided by its row's clamped norm. -/
theorem xn_eq (x : FVec Ideal S8192x512 .f32) (r : Fin 8192) (k : Fin 512) :
    val_main_v4 (F := Ideal) x (ix2 r k) = xn x r k := by
  have e1 : idx_main_v3 (ix2 r k) = ix2 r (0 : Fin 1) :=
    funext fun a => Fin.ext (by match a with | ⟨0, _⟩ => rfl | ⟨1, _⟩ => rfl)
  rw [val_main_v4_apply, val_main_v3_apply, e1, nrm_eq, Ideal.hostDivf_def]
  rfl

/-! ## The pairwise distances -/

/-- The cosine distance of rows `r` and `j`: one minus the sum over the features of the products of the two rows'
    normalised entries (the transposed operand read back at its own row). -/
theorem dist_eq (x : FVec Ideal S8192x512 .f32) (r j : Fin 8192) :
    val_main_v8 (F := Ideal) x (ix2 r j) = dist x r j := by
  have e1 : ∀ k : Fin 512, lidx_main_v6 (ix2 r j) k = ix2 r k := fun k =>
    funext fun a => Fin.ext (by match a with | ⟨0, _⟩ => rfl | ⟨1, _⟩ => rfl)
  have e2 : ∀ k : Fin 512, idx_main_v5 (ridx_main_v6 (ix2 r j) k) = ix2 j k := fun k =>
    funext fun a => Fin.ext (by match a with | ⟨0, _⟩ => rfl | ⟨1, _⟩ => rfl)
  rw [val_main_v8_apply, val_main_v7_apply, val_main_cst_0_apply, val_main_v6_apply]
  simp only [val_main_v5_apply, e1, e2, xn_eq, Ideal.ofBits_def, Ideal.subf_def]
  rfl

/-! ## The label indicators and the class sizes -/

/-- A one-bit comparison word converted to a float is one when the operands are equal and zero otherwise. -/
theorem uitofp_cmpi_eq (a b : BitVec 32) :
    FloatOps.uitofp (F := Ideal) .f32 (IntOp.cmpi .eq a b) = if a = b then (1 : EReal) else 0 := by
  by_cases h : a = b
  · rw [if_pos h, IntOp.cmpi_eq.mpr h]
    show (((1#1 : BitVec 1).toNat : ℝ) : EReal) = 1
    norm_num
  · rw [if_neg h, eq_zero_of_ne_one (fun h1 => h (IntOp.cmpi_eq.mp h1))]
    show (((0#1 : BitVec 1).toNat : ℝ) : EReal) = 0
    norm_num

/-- The indicator entry at row `r`, class `c`: the row's label word compared with the class number's word. -/
theorem oh_eq (l : IVec S8192 32) (r : Fin 8192) (c : Fin 10) :
    val_main_v9 (F := Ideal) l (ix2 r c) = oh l r c.val := by
  have e1 : idx_main_call1_v0 (idx_main_call1_v2 (ix2 r c)) = ix1 r :=
    funext fun a => Fin.ext (by match a with | ⟨0, _⟩ => rfl)
  rw [val_main_v9_apply, val_main_call1_v4_apply, val_main_call1_v2_apply, val_main_call1_v0_apply,
    val_main_call1_v3_apply, val_main_call1_v1_apply, e1, uitofp_cmpi_eq]
  rfl

/-- The size of class `c`: the sum of its indicators over the rows. -/
theorem cnt_eq (l : IVec S8192 32) (c : Fin 10) :
    val_main_v11 (F := Ideal) l (ix1 c) = cnt l c.val := by
  have e1 : ∀ k : Fin 8192, idx_main_v11 (ix1 c) k = ix2 k c := fun k =>
    funext fun a => Fin.ext (by match a with | ⟨0, _⟩ => rfl | ⟨1, _⟩ => rfl)
  rw [val_main_v11_apply, val_main_cst_1_apply]
  simp only [e1, oh_eq, Ideal.ofBits_def, Ideal.ofBits_zero_f32, zero_add]
  rfl

/-! ## A row's average distance to a class, and the hinge terms -/

/-- Row `r`'s average distance to class `c`: the sum over the rows `j` of the distance to `j` times `j`'s indicator,
    divided by the class size plus ε. -/
theorem ravg_eq (x : FVec Ideal S8192x512 .f32) (l : IVec S8192 32) (r : Fin 8192) (c : Fin 10) :
    val_main_v16 (F := Ideal) x l (ix2 r c) = ravg x l r c.val := by
  have e1 : ∀ k : Fin 8192, lidx_main_v10 (ix2 r c) k = ix2 r k := fun k =>
    funext fun a => Fin.ext (by match a with | ⟨0, _⟩ => rfl | ⟨1, _⟩ => rfl)
  have e2 : ∀ k : Fin 8192, ridx_main_v10 (ix2 r c) k = ix2 k c := fun k =>
    funext fun a => Fin.ext (by match a with | ⟨0, _⟩ => rfl | ⟨1, _⟩ => rfl)
  have e3 : idx_main_v12 (idx_main_v15 (ix2 r c)) = ix1 c :=
    funext fun a => Fin.ext (by match a with | ⟨0, _⟩ => rfl)
  rw [val_main_v16_apply, val_main_v10_apply, val_main_v15_apply, val_main_v14_apply, val_main_v12_apply, e3, cnt_eq,
    val_main_v13_apply, val_main_cst_2_apply]
  simp only [e1, e2, dist_eq, oh_eq, Ideal.ofBits_def, Ideal.addf_def, Ideal.hostDivf_def]
  rfl

/-- The two squared hinge terms of row `r` and class `c`, added. -/
theorem hinge_eq (x : FVec Ideal S8192x512 .f32) (l : IVec S8192 32) (r : Fin 8192) (c : Fin 10) :
    val_main_v31 (F := Ideal) x l (ix2 r c) = hinge (ravg x l r c.val) (oh l r c.val) := by
  rw [val_main_v31_apply, val_main_v25_apply, val_main_v24_apply, val_main_v22_apply, val_main_v21_apply,
    val_main_cst_4_apply, val_main_v20_apply, val_main_v23_apply, val_main_cst_5_apply,
    val_main_v30_apply, val_main_v29_apply, val_main_v27_apply, val_main_v26_apply, val_main_cst_6_apply,
    val_main_v19_apply, val_main_v18_apply, val_main_v17_apply, val_main_cst_3_apply, val_main_v28_apply,
    val_main_cst_7_apply, ravg_eq, oh_eq]
  rfl

/-! ## The sums over the classes and the rows, and the mean -/

/-- Row `r`'s sum of the hinge terms over the ten classes. -/
theorem rowsum_eq (x : FVec Ideal S8192x512 .f32) (l : IVec S8192 32) (r : Fin 8192) :
    val_main_v32 (F := Ideal) x l (ix1 r) = ∑ c : Fin 10, hinge (ravg x l r c.val) (oh l r c.val) := by
  have e1 : ∀ k : Fin 10, idx_main_v32 (ix1 r) k = ix2 r k := fun k =>
    funext fun a => Fin.ext (by match a with | ⟨0, _⟩ => rfl | ⟨1, _⟩ => rfl)
  rw [val_main_v32_apply, val_main_cst_8_apply]
  simp only [e1, hinge_eq, Ideal.ofBits_def, Ideal.ofBits_zero_f32, zero_add]

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the pairwise arrangement of the loss: the sum of every row's hinge sums divided by the
    number of rows. -/
theorem ref_value (x : FVec Ideal S8192x512 .f32) (l : IVec S8192 32) :
    val_main_v34 (F := Ideal) x l = fun _ => refLoss x l := by
  funext i
  rw [val_main_v34_apply, val_main_v33_apply, val_main_cst_9_apply, val_main_cst_10_apply, sum_idx1]
  simp only [rowsum_eq, Ideal.ofBits_def, Ideal.ofBits_zero_f32, zero_add, Ideal.hostDivf_def]
  rfl

/-! ## The reference's run ends at the loss -/

/-- Every execution of the reference terminates with its result buffer holding the pairwise loss of the argument arrays
    and the arguments unchanged. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v34)
          = (fun _ => refLoss (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun _ h c => ⟨(h c).1.trans ((Read.val_main_v34_eq m c).trans (ref_value _ _)), (h c).2⟩)
    (Cert.ReferenceIdeal.Value.run (F := Ideal) m ρ)

end Cert.ReferenceIdeal.RefValue

end
-- ==== Proof.Bridge.lean ====
/-
  The blocked and the pairwise arrangement of the contrastive loss agree on real inputs.

  When every entry of X is a real number, every normalised entry xn r k is a real number too: the sum of squares of a
  row is a non-negative real, its square root a real, the clamp by ε > 0 a positive real, and a real divided by a
  nonzero real is the real quotient. The indicators oh are 0 or 1. So, for a row r and a class c, with a k = xn r k,
  b j k = xn j k and o j = oh j c, the two numerators are sums and products of reals inside the extended reals, where

      Σ_j o j − Σ_k a k · (Σ_j b j k · o j) = Σ_j (1 − Σ_k a k · b j k) · o j

  holds by distributivity and by exchanging the two finite sums. The denominators are the same expression. So the two
  averages agree at every class. Last, the sum over 128 lanes with the factor [c < 10] is the sum over the ten classes,
  because x · 1 = x and x · 0 = 0 for every extended real x.
-/
import proofs.«174399_j33268816675395_2_alg».proof.Proof.Spec
import Idealize.ShloMosaic.Lib.IdealHost

noncomputable section

open scoped BigOperators

namespace Cert.ContrastSpec

open Idealize.ShloMosaic Idealize.ShloMosaic.ValueIdx

/-! ## Finite sums of reals inside the extended reals -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The class-sum form and the pairwise form of the summed distances, over the reals: distributivity and the exchange
    of the two finite sums. -/
theorem real_exchange {R K : Type*} [Fintype R] [Fintype K] (a : K → ℝ) (b : R → K → ℝ) (o : R → ℝ) :
    (∑ j, o j) - ∑ k, a k * ∑ j, b j k * o j = ∑ j, (1 - ∑ k, a k * b j k) * o j := by
  simp only [sub_mul, one_mul, Finset.sum_sub_distrib, Finset.mul_sum, Finset.sum_mul]
  congr 1
  rw [Finset.sum_comm]
  refine Finset.sum_congr rfl fun j _ => Finset.sum_congr rfl fun k _ => ?_
  ring

/-- The same identity between the images in the extended reals. -/
theorem ereal_exchange {R K : Type*} [Fintype R] [Fintype K] (a : K → ℝ) (b : R → K → ℝ) (o : R → ℝ) :
    (∑ j, (o j : EReal)) - ∑ k, (a k : EReal) * ∑ j, (b j k : EReal) * (o j : EReal)
      = ∑ j, ((1 : EReal) - ∑ k, (a k : EReal) * (b j k : EReal)) * (o j : EReal) := by
  have h := congrArg (fun t : ℝ => (t : EReal)) (real_exchange a b o)
  simp only [EReal.coe_sub, coe_sum, EReal.coe_mul, EReal.coe_one] at h
  exact h

/-- A sum over m lanes of which only the first n count is the sum over those n. -/
theorem sum_lanes {n m : ℕ} (hnm : n ≤ m) (f : ℕ → EReal) :
    ∑ c : Fin m, f c.val * (if c.val < n then (1 : EReal) else 0) = ∑ c : Fin n, f c.val := by
  rw [Fin.sum_univ_eq_sum_range (fun c => f c * (if c < n then (1 : EReal) else 0)) m,
    Fin.sum_univ_eq_sum_range f n]
  have h : Finset.range n ⊆ Finset.range m := Finset.range_mono hnm
  rw [← Finset.sum_subset h (f := fun c => f c * (if c < n then (1 : EReal) else 0))]
  · refine Finset.sum_congr rfl fun c hc => ?_
    rw [if_pos (Finset.mem_range.mp hc), mul_one]
  · intro c _ hc
    rw [if_neg (by simpa using hc), mul_zero]

/-! ## The constants -/

theorem one_eq : one = 1 := Ideal.ofBits_one_f32

/-- ε is a positive real. -/
theorem eps_real : ∃ e : ℝ, 0 < e ∧ eps = (e : EReal) := by
  unfold eps
  simp [Ideal.ofBits, Ideal.ieee, -EReal.coe_mul]

/-! ## The normalised rows are real -/

/-- The indicator as a real number. -/
def ohR (L : Lab) (r : Fin 8192) (c : ℕ) : ℝ := if L (ix1 r) = BitVec.ofNat 32 c then 1 else 0

theorem oh_eq (L : Lab) (r : Fin 8192) (c : ℕ) : oh L r c = (ohR L r c : EReal) := by
  unfold oh ohR
  split_ifs <;> simp

/-- The clamped norm of a row of reals is a positive real. -/
theorem nrm_real (X : Mat) (x : (⟨2, ![8192, 512]⟩ : Shape).Idx → ℝ) (hx : ∀ i, X i = (x i : EReal)) (r : Fin 8192) :
    ∃ n : ℝ, 0 < n ∧ nrm X r = (n : EReal) := by
  obtain ⟨e, he, hE⟩ := eps_real
  have h0 : ¬ (∑ k : Fin 512, x (ix2 r k) * x (ix2 r k)) < 0 :=
    not_lt.mpr (Finset.sum_nonneg fun k _ => mul_self_nonneg _)
  refine ⟨max (Real.sqrt (∑ k : Fin 512, x (ix2 r k) * x (ix2 r k))) e, lt_max_of_lt_right he, ?_⟩
  unfold nrm
  simp only [hx, ← EReal.coe_mul, ← coe_sum]
  rw [Ideal.sqrt_coe, if_neg h0, hE]
  exact (EReal.coe_strictMono.monotone.map_max).symm

/-- The normalised entries of a matrix of reals are reals. -/
theorem xn_real (X : Mat) (hX : ∀ i, ∃ x : ℝ, X i = (x : EReal)) :
    ∃ a : Fin 8192 → Fin 512 → ℝ, ∀ r k, xn X r k = (a r k : EReal) := by
  choose x hx using hX
  choose n hn using nrm_real X x hx
  refine ⟨fun r k => x (ix2 r k) * (1 / n r), fun r k => ?_⟩
  unfold xn
  rw [(hn r).2, Ideal.div_coe (hn r).1.ne', hx, EReal.coe_mul]

/-! ## The two averages agree -/

theorem kavg_eq_ravg (X : Mat) (L : Lab) (hX : ∀ i, ∃ x : ℝ, X i = (x : EReal)) (r : Fin 8192) (c : ℕ) :
    kavg X L r c = ravg X L r c := by
  obtain ⟨a, ha⟩ := xn_real X hX
  unfold kavg ravg
  congr 1
  unfold cnt gsum dist
  simp only [ha, oh_eq, one_eq]
  exact ereal_exchange (a r) a (fun j => ohR L j c)

/-- On real inputs the blocked and the pairwise arrangement give the same loss. -/
theorem kernelLoss_eq_refLoss (X : Mat) (L : Lab) (hX : ∀ i, ∃ x : ℝ, X i = (x : EReal)) :
    kernelLoss X L = refLoss X L := by
  unfold kernelLoss refLoss
  congr 1
  refine Finset.sum_congr rfl fun r _ => ?_
  simp only [kavg_eq_ravg X L hX]
  exact sum_lanes (by norm_num) (fun c => hinge (ravg X L r c) (oh L r c))

end Cert.ContrastSpec

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.FiniteInputs.lean ====
/-
  The precondition makes every entry of the feature matrix a real number.

  The precondition says |x i| < +∞ at every index i: it is an all-reduction by `and`, from the constant 1, of the one-bit array of the
  comparisons |x i| < +∞. If it is 1 then every comparison is 1, and an extended real whose absolute value is below +∞
  is neither infinity, so it is a real.
-/
import proofs.«174399_j33268816675395_2_alg».proof.Pre_finite_inputs
import proofs.«174399_j33268816675395_2_alg».proof.Proof.LibFinite

noncomputable section

namespace Cert.ContrastFinite

open Idealize.ShloMosaic Cert.Pre_finite_inputs

/-- Under the precondition every entry of `x` is a real. (The label vector plays no part.) -/
theorem real_of_pre [Facts] (x : FVec Ideal S8192x512 .f32) (l : IVec S8192 32)
    (h : Cert.Pre_finite_inputs.fn (F := Ideal) x l = fun _ => 1#1) : ∀ i, ∃ r : ℝ, x i = (r : EReal) := by
  intro i
  have e := congrFun h ValueIdx.ix0
  exact Cert.LibFinite.all_real_of_reduce x Facts.bcast_S_S8192x512 Facts.reducesTo_S8192x512_S_d0_1 Facts.h_S_ e i

end Cert.ContrastFinite

end
-- ==== Proof.lean ====
/-
  The kernel computes a multi-label contrastive loss of 8192 feature rows (512 features) and their labels in one
  fused launch of two passes over eight tiles of 1024 rows: the first pass normalises each row by its clamped Euclidean
  norm, caches the normalised rows, and accumulates per class the sum of the class's normalised rows and the class's size;
  the second pass forms, per row and class, the average cosine distance to the class as
      (size − row · class sum) / (size + ε),
  takes the two squared hinge terms, and sums them over rows and the ten classes; the mean over rows is the result. The
  reference forms all 8192 × 8192 pairwise cosine distances 1 − row_i · row_j, multiplies by the indicator matrix, and
  continues alike.

  On the extended reals the two agree when the features are finite: every normalised row is then real, and
      Σ_j (1 − Σ_k x_ik x_jk) · oh_jc = Σ_j oh_jc − Σ_k x_ik (Σ_j x_jk oh_jc)
  by distributivity and exchanging two finite sums (the only place finiteness is used); the kernel's sum over 128 lanes
  carries a mask that is 1 on the ten classes and 0 elsewhere, and a sum over eight tiles of 1024 rows is the sum over the
  8192 rows.

  The frames: each program terminates without fault and leaves its arguments unchanged. The kernel's body is run once per
  case of its three conditionals (first point; rest of the first pass; second pass) with an invariant that carries the
  accumulators' values and the filled part of the cache from point to point; the output row's staging buffer is zeroed at
  the first point, untouched through the first pass, and accumulated into through the second. No rewrite was applied when
  the kernel was idealized, so that conjunct is trivial.
-/
import proofs.«174399_j33268816675395_2_alg».proof.Defs
import proofs.«174399_j33268816675395_2_alg».proof.Proof.Gen.Kernel
import proofs.«174399_j33268816675395_2_alg».proof.Proof.Gen.KernelIdeal
import proofs.«174399_j33268816675395_2_alg».proof.Proof.Gen.ReferenceIdeal
import proofs.«174399_j33268816675395_2_alg».proof.Proof.Gen.Pre_finite_inputs
import proofs.«174399_j33268816675395_2_alg».proof.Proof.KFrameBits
import proofs.«174399_j33268816675395_2_alg».proof.Proof.KValue
import proofs.«174399_j33268816675395_2_alg».proof.Proof.RefSide
import proofs.«174399_j33268816675395_2_alg».proof.Proof.Bridge
import proofs.«174399_j33268816675395_2_alg».proof.Proof.FiniteInputs
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The kernel as printed runs and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefValue.ref_run m ρ)

/-- The two idealized programs end with the same loss: the kernel with the blocked arrangement, the reference with the
    pairwise one, equal on finite features. -/
theorem algebraic : Cert.algebraic_KernelIdeal_ReferenceIdeal := by
  intro m ρ m' ρ' hpre hagree
  refine ⟨fun c => fun _ => Cert.ContrastSpec.kernelLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2]
  funext _
  exact (Cert.ContrastSpec.kernelLoss_eq_refLoss _ _ (Cert.ContrastFinite.real_of_pre _ _ (hpre c))).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
